-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x128 : Shape := ⟨3, ![4096, 128, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x128x128 : S_.BroadcastsInDim S4096x128x128 (![] : Fin 0 → Fin S4096x128x128.rank)
  reducesTo_S4096x128x128_S_d0_1_2 : S4096x128x128.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256 .f32) (main_arg5 : FVec F S256x128 .f32) (main_arg6 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4096x128x128 .f32) (main_arg1 : FVec F S4096x128x128 .f32) (main_arg2 : FVec F S4096x128x128 .f32) (main_arg3 : FVec F S256x256 .f32) (main_arg4 : FVec F S256 .f32) (main_arg5 : FVec F S256x128 .f32) (main_arg6 : FVec F S128 .f32) : IVec S_ 1 :=
  let main_v0 : FVec F S4096x128x128 .f32 := Host.absf main_arg0
  let main_cst : FVec F S_ .f32 := constant S_ .f32 0x7F800000#32
  let main_v1 : FVec F S4096x128x128 .f32 := broadcastInDim S4096x128x128 ![] bcast_S_S4096x128x128 main_cst
  let main_v2 : IVec S4096x128x128 1 := cmpf .olt main_v0 main_v1
  let main_c : IVec S_ 1 := constantI S_ 1 1#1
  let main_v3 : IVec S_ 1 := (fun x v => Host.reduce IntOp.andi x v reducesTo_S4096x128x128_S_d0_1_2 h_S_) main_v2 main_c
  let main_v4 : FVec F S4096x128x128 .f32 := Host.absf main_arg1
  let main_cst_0 : FVec F S_ .f32 := constant S_ .f32 0x7F800000#32
  let main_v5 : FVec F S4096x128x128 .f32 := broadcastInDim S4096x128x128 ![] bcast_S_S4096x128x128 main_cst_0
  let main_v6 : IVec S4096x128x128 1 := cmpf .olt main_v4 main_v5
  let main_c_1 : IVec S_ 1 := constantI S_ 1 1#1
  let main_v7 : IVec S_ 1 := (fun x v => Host.reduce IntOp.andi x v reducesTo_S4096x128x128_S_d0_1_2 h_S_) main_v6 main_c_1
  let main_v8 : IVec S_ 1 := andi main_v3 main_v7
  let main_v9 : FVec F S4096x128x128 .f32 := Host.absf main_arg2
  let main_cst_2 : FVec F S_ .f32 := constant S_ .f32 0x7F800000#32
  let main_v10 : FVec F S4096x128x128 .f32 := broadcastInDim S4096x128x128 ![] bcast_S_S4096x128x128 main_cst_2
  let main_v11 : IVec S4096x128x128 1 := cmpf .olt main_v9 main_v10
  let main_c_3 : IVec S_ 1 := constantI S_ 1 1#1
  let main_v12 : IVec S_ 1 := (fun x v => Host.reduce IntOp.andi x v reducesTo_S4096x128x128_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4096x128x128 : Shape := ⟨3, ![4096, 128, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S32x128x128 : Shape := ⟨3, ![32, 128, 128]⟩
abbrev S32x128 : Shape := ⟨2, ![32, 128]⟩
abbrev S32x128x1 : Shape := ⟨3, ![32, 128, 1]⟩
abbrev S32x1x128 : Shape := ⟨3, ![32, 1, 128]⟩
abbrev S4096x128 : Shape := ⟨2, ![4096, 128]⟩
abbrev S128x256 : Shape := ⟨2, ![128, 256]⟩
abbrev S4096x256 : Shape := ⟨2, ![4096, 256]⟩
abbrev S1x256 : Shape := ⟨2, ![1, 256]⟩
abbrev S1x128 : Shape := ⟨2, ![1, 128]⟩

abbrev nBuf : Space → Nat
  | .hbm => 9
  | .vmem => 14
  | .smem => 0
  | _ => 0

abbrev bufTy : (tb : Table) → Fin (tcTables nBuf tb) → BufTy
  | .hbm, ⟨0, _⟩ => ⟨S4096x128x128, .f32⟩
  | .hbm, ⟨1, _⟩ => ⟨S4096x128x128, .f32⟩
  | .hbm, ⟨2, _⟩ => ⟨S4096x128x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S4096x128x128, .f32⟩
  | .hbm, ⟨8, _⟩ => ⟨S4096x128x128, .f32⟩
  | .local _ .vmem, ⟨0, _⟩ => ⟨S32x128x128, .f32⟩
  | .local _ .vmem, ⟨1, _⟩ => ⟨S32x128x128, .f32⟩
  | .local _ .vmem, ⟨2, _⟩ => ⟨S32x128x128, .f32⟩
  | .local _ .vmem, ⟨3, _⟩ => ⟨S32x128x128, .f32⟩
  | .local _ .vmem, ⟨4, _⟩ => ⟨S32x128x128, .f32⟩
  | .local _ .vmem, ⟨5, _⟩ => ⟨S32x128x128, .f32⟩
  | .local _ .vmem, ⟨6, _⟩ => ⟨S256x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S32x128x128, .f32⟩
  | .local _ .vmem, ⟨11, _⟩ => ⟨S32x128x128, .f32⟩
  | .local _ .vmem, ⟨12, _⟩ => ⟨S32x128x128, .f32⟩
  | .local _ .vmem, ⟨13, _⟩ => ⟨S32x128x128, .f32⟩
  | _, _ => ⟨S4096x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S32x128x128_S32x128x128_0_0_0 : ∀ a, (![0, 0, 0] : Fin 3 → Nat) a + S32x128x128.size a ≤ S32x128x128.size a
  h_S32x128x128 : 0 < S32x128x128.numel
  bitsLt_bf16_f32 : FTy.bits .bf16 < FTy.bits .f32
  reduces_S32x128x128_S32x128 : S32x128x128.Reduces [2] S32x128
  shapeCasts_S32x128_S32x128x1 : S32x128.ShapeCasts S32x128x1
  broadcasts_S32x128x1_S32x128x128 : S32x128x1.Broadcasts S32x128x128
  reduces_S32x128x128_S32x128_2 : S32x128x128.Reduces [1] S32x128
  shapeCasts_S32x128_S32x1x128 : S32x128.ShapeCasts S32x1x128
  broadcasts_S32x1x128_S32x128x128 : S32x1x128.Broadcasts S32x128x128
  shapeCasts_S32x128x128_S4096x128 : S32x128x128.ShapeCasts S4096x128
  inb_S256x256_S128x256_0_0 : ∀ a, (![0, 0] : Fin 2 → Nat) a + S128x256.size a ≤ S256x256.size a
  h_S128x256 : 0 < S128x256.numel
  inb_S256x256_S128x256_128_0 : ∀ a, (![128, 0] : Fin 2 → Nat) a + S128x256.size a ≤ S256x256.size a
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S4096x128_S32x128x128 : S4096x128.ShapeCasts S32x128x128
  dot_S32x128x128_S32x128x128_S32x128x128_2_2_1_1_0_0_wf : DotDims.WF S32x128x128 S32x128x128 S32x128x128 [2] [2] [1] [1] [0] [0]
  dot_S32x128x128_S32x128x128_S32x128x128_2_1_1_2_0_0_wf : DotDims.WF S32x128x128 S32x128x128 S32x128x128 [2] [1] [1] [2] [0] [0]
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x128.size a ≤ S4096x128x128.size a
  hwx0_0 : ∀ i : grid0.Coords, EltTy.bits .f32 = 32 ∨ (Rect.block (s := S4096x128x128) S32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S4096x128x128.size a
  hwx0_1 : ∀ i : grid0.Coords, EltTy.bits .f32 = 32 ∨ (Rect.block (s := S4096x128x128) S32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x128.size a ≤ S4096x128x128.size a
  hwx0_2 : ∀ i : grid0.Coords, EltTy.bits .f32 = 32 ∨ (Rect.block (s := S4096x128x128) S32x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x128.size a ≤ S4096x128x128.size a
  hwx0_7 : ∀ i : grid0.Coords, EltTy.bits .f32 = 32 ∨ (Rect.block (s := S4096x128x128) S32x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128x128.size a ≤ S4096x128x128.size a
  hwx0_8 : ∀ i : grid0.Coords, EltTy.bits .f32 = 32 ∨ (Rect.block (s := S4096x128x128) S32x128x128.size (cc0_transform_8 i) (hinb0_8 i)).WholeWords (EltTy.packing .f32)

variable [Facts₀]

def dot_S32x128x128_S32x128x128_S32x128x128_2_2_1_1_0_0 : DotDims S32x128x128 S32x128x128 S32x128x128 where
  lhsContracting := [2]
  rhsContracting := [2]
  lhsNonContracting := [1]
  rhsNonContracting := [1]
  lhsBatch := [0]
  rhsBatch := [0]
  wf := dot_S32x128x128_S32x128x128_S32x128x128_2_2_1_1_0_0_wf
def dot_S32x128x128_S32x128x128_S32x128x128_2_1_1_2_0_0 : DotDims S32x128x128 S32x128x128 S32x128x128 where
  lhsContracting := [2]
  rhsContracting := [1]
  lhsNonContracting := [1]
  rhsNonContracting := [2]
  lhsBatch := [0]
  rhsBatch := [0]
  wf := dot_S32x128x128_S32x128x128_S32x128x128_2_1_1_2_0_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S32x128x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S32x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x128x128 : Shape := ⟨3, ![4096, 128, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S4096x128 : Shape := ⟨2, ![4096, 128]⟩
abbrev S4096x128x1 : Shape := ⟨3, ![4096, 128, 1]⟩
abbrev S4096x1x128 : Shape := ⟨3, ![4096, 1, 128]⟩
abbrev S4096x128x256 : Shape := ⟨3, ![4096, 128, 256]⟩
abbrev S1x1x256 : Shape := ⟨3, ![1, 1, 256]⟩
abbrev S1x1x128 : Shape := ⟨3, ![1, 1, 128]⟩

abbrev nBuf : Space → Nat
  | .hbm => 65
  | .vmem => 0
  | .smem => 0
  | _ => 0

abbrev bufTy : (tb : Table) → Fin (tcTables nBuf tb) → BufTy
  | .hbm, ⟨0, _⟩ => ⟨S4096x128x128, .f32⟩
  | .hbm, ⟨1, _⟩ => ⟨S4096x128x128, .f32⟩
  | .hbm, ⟨2, _⟩ => ⟨S4096x128x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S4096x128x128, .f32⟩
  | .hbm, ⟨8, _⟩ => ⟨S_, .f32⟩
  | .hbm, ⟨9, _⟩ => ⟨S4096x128, .f32⟩
  | .hbm, ⟨10, _⟩ => ⟨S4096x128x1, .f32⟩
  | .hbm, ⟨11, _⟩ => ⟨S4096x128x1, .f32⟩
  | .hbm, ⟨12, _⟩ => ⟨S4096x128x128, .f32⟩
  | .hbm, ⟨13, _⟩ => ⟨S4096x128x128, .f32⟩
  | .hbm, ⟨14, _⟩ => ⟨S4096x128x128, .f32⟩
  | .hbm, ⟨15, _⟩ => ⟨S_, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S4096x1x128, .f32⟩
  | .hbm, ⟨21, _⟩ => ⟨S4096x128x128, .f32⟩
  | .hbm, ⟨22, _⟩ => ⟨S4096x128x128, .f32⟩
  | .hbm, ⟨23, _⟩ => ⟨S4096x128x128, .f32⟩
  | .hbm, ⟨24, _⟩ => ⟨S_, .f32⟩
  | .hbm, ⟨25, _⟩ => ⟨S4096x128, .f32⟩
  | .hbm, ⟨26, _⟩ => ⟨S4096x1x128, .f32⟩
  | .hbm, ⟨27, _⟩ => ⟨S4096x128x128, .f32⟩
  | .hbm, ⟨28, _⟩ => ⟨S4096x128x128, .f32⟩
  | .hbm, ⟨29, _⟩ => ⟨S4096x128x128, .f32⟩
  | .hbm, ⟨30, _⟩ => ⟨S4096x128x128, .f32⟩
  | .hbm, ⟨31, _⟩ => ⟨S_, .f32⟩
  | .hbm, ⟨32, _⟩ => ⟨S4096x128, .f32⟩
  | .hbm, ⟨33, _⟩ => ⟨S4096x128x1, .f32⟩
  | .hbm, ⟨34, _⟩ => ⟨S4096x128x1, .f32⟩
  | .hbm, ⟨35, _⟩ => ⟨S4096x128x128, .f32⟩
  | .hbm, ⟨36, _⟩ => ⟨S4096x128x128, .f32⟩
  | .hbm, ⟨37, _⟩ => ⟨S4096x128x128, .f32⟩
  | .hbm, ⟨38, _⟩ => ⟨S_, .f32⟩
  | .hbm, ⟨39, _⟩ => ⟨S4096x128, .f32⟩
  | .hbm, ⟨40, _⟩ => ⟨S_, .f32⟩
  | .hbm, ⟨41, _⟩ => ⟨S4096x128, .f32⟩
  | .hbm, ⟨42, _⟩ => ⟨S4096x128, .f32⟩
  | .hbm, ⟨43, _⟩ => ⟨S4096x1x128, .f32⟩
  | .hbm, ⟨44, _⟩ => ⟨S4096x128x128, .f32⟩
  | .hbm, ⟨45, _⟩ => ⟨S4096x128x128, .f32⟩
  | .hbm, ⟨46, _⟩ => ⟨S4096x128x128, .f32⟩
  | .hbm, ⟨47, _⟩ => ⟨S_, .f32⟩
  | .hbm, ⟨48, _⟩ => ⟨S4096x128, .f32⟩
  | .hbm, ⟨49, _⟩ => ⟨S4096x1x128, .f32⟩
  | .hbm, ⟨50, _⟩ => ⟨S4096x128x128, .f32⟩
  | .hbm, ⟨51, _⟩ => ⟨S4096x128x128, .f32⟩
  | .hbm, ⟨52, _⟩ => ⟨S4096x128x128, .f32⟩
  | .hbm, ⟨53, _⟩ => ⟨S4096x128x256, .f32⟩
  | .hbm, ⟨54, _⟩ => ⟨S4096x128x256, .f32⟩
  | .hbm, ⟨55, _⟩ => ⟨S1x1x256, .f32⟩
  | .hbm, ⟨56, _⟩ => ⟨S4096x128x256, .f32⟩
  | .hbm, ⟨57, _⟩ => ⟨S4096x128x256, .f32⟩
  | .hbm, ⟨58, _⟩ => ⟨S_, .f32⟩
  | .hbm, ⟨59, _⟩ => ⟨S4096x128x256, .f32⟩
  | .hbm, ⟨60, _⟩ => ⟨S4096x128x256, .f32⟩
  | .hbm, ⟨61, _⟩ => ⟨S4096x128x128, .f32⟩
  | .hbm, ⟨62, _⟩ => ⟨S1x1x128, .f32⟩
  | .hbm, ⟨63, _⟩ => ⟨S4096x128x128, .f32⟩
  | .hbm, ⟨64, _⟩ => ⟨S4096x128x128, .f32⟩
  | _, _ => ⟨S4096x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call2_cst : Ref sig .tc := ⟨.hbm, 58, rfl⟩
abbrev main_call2_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  reducesTo_S4096x128x128_S4096x128_d2 : S4096x128x128.ReducesTo [2] S4096x128
  h_S_ : 0 < S_.numel
  bcast_S4096x128_S4096x128x1_0_1 : S4096x128.BroadcastsInDim S4096x128x1 (![0, 1] : Fin 2 → Fin S4096x128x1.rank)
  bcast_S4096x128x1_S4096x128x128_0_1_2 : S4096x128x1.BroadcastsInDim S4096x128x128 (![0, 1, 2] : Fin 3 → Fin S4096x128x128.rank)
  reducesTo_S4096x128x128_S4096x128_d1 : S4096x128x128.ReducesTo [1] S4096x128
  bcast_S_S4096x128 : S_.BroadcastsInDim S4096x128 (![] : Fin 0 → Fin S4096x128.rank)
  bcast_S4096x128_S4096x1x128_0_2 : S4096x128.BroadcastsInDim S4096x1x128 (![0, 2] : Fin 2 → Fin S4096x1x128.rank)
  bcast_S4096x1x128_S4096x128x128_0_1_2 : S4096x1x128.BroadcastsInDim S4096x128x128 (![0, 1, 2] : Fin 3 → Fin S4096x128x128.rank)
  concatenates_S4096x128x128_S4096x128x128_S4096x128x256_d2 : Shape.Concatenates [S4096x128x128, S4096x128x128] S4096x128x256 2
  bcast_S256_S1x1x256_2 : S256.BroadcastsInDim S1x1x256 (![2] : Fin 1 → Fin S1x1x256.rank)
  bcast_S1x1x256_S4096x128x256_0_1_2 : S1x1x256.BroadcastsInDim S4096x128x256 (![0, 1, 2] : Fin 3 → Fin S4096x128x256.rank)
  bcast_S_S4096x128x256 : S_.BroadcastsInDim S4096x128x256 (![] : Fin 0 → Fin S4096x128x256.rank)
  bcast_S128_S1x1x128_2 : S128.BroadcastsInDim S1x1x128 (![2] : Fin 1 → Fin S1x1x128.rank)
  bcast_S1x1x128_S4096x128x128_0_1_2 : S1x1x128.BroadcastsInDim S4096x128x128 (![0, 1, 2] : Fin 3 → Fin S4096x128x128.rank)
  dot_S4096x128x128_S4096x128x128_S4096x128x128_2_2_1_1_0_0_wf : DotDims.WF S4096x128x128 S4096x128x128 S4096x128x128 [2] [2] [1] [1] [0] [0]
  dot_S4096x128x128_S4096x128x128_S4096x128x128_2_1_1_2_0_0_wf : DotDims.WF S4096x128x128 S4096x128x128 S4096x128x128 [2] [1] [1] [2] [0] [0]
  dot_S4096x128x256_S256x256_S4096x128x256_2_0_01_1_n_n_wf : DotDims.WF S4096x128x256 S256x256 S4096x128x256 [2] [0] [0, 1] [1] [] []
  dot_S4096x128x256_S256x128_S4096x128x128_2_0_01_1_n_n_wf : DotDims.WF S4096x128x256 S256x128 S4096x128x128 [2] [0] [0, 1] [1] [] []

variable [Facts₀]

def dot_S4096x128x128_S4096x128x128_S4096x128x128_2_2_1_1_0_0 : DotDims S4096x128x128 S4096x128x128 S4096x128x128 where
  lhsContracting := [2]
  rhsContracting := [2]
  lhsNonContracting := [1]
  rhsNonContracting := [1]
  lhsBatch := [0]
  rhsBatch := [0]
  wf := dot_S4096x128x128_S4096x128x128_S4096x128x128_2_2_1_1_0_0_wf
def dot_S4096x128x128_S4096x128x128_S4096x128x128_2_1_1_2_0_0 : DotDims S4096x128x128 S4096x128x128 S4096x128x128 where
  lhsContracting := [2]
  rhsContracting := [1]
  lhsNonContracting := [1]
  rhsNonContracting := [2]
  lhsBatch := [0]
  rhsBatch := [0]
  wf := dot_S4096x128x128_S4096x128x128_S4096x128x128_2_1_1_2_0_0_wf
def dot_S4096x128x256_S256x256_S4096x128x256_2_0_01_1_n_n : DotDims S4096x128x256 S256x256 S4096x128x256 where
  lhsContracting := [2]
  rhsContracting := [0]
  lhsNonContracting := [0, 1]
  rhsNonContracting := [1]
  lhsBatch := []
  rhsBatch := []
  wf := dot_S4096x128x256_S256x256_S4096x128x256_2_0_01_1_n_n_wf
def dot_S4096x128x256_S256x128_S4096x128x128_2_0_01_1_n_n : DotDims S4096x128x256 S256x128 S4096x128x128 where
  lhsContracting := [2]
  rhsContracting := [0]
  lhsNonContracting := [0, 1]
  rhsNonContracting := [1]
  lhsBatch := []
  rhsBatch := []
  wf := dot_S4096x128x256_S256x128_S4096x128x128_2_0_01_1_n_n_wf

class Facts : Prop extends Facts₀ where

variable [Facts]
-- ==== Proof.Spec.lean ====
/-
  The mathematics both programs compute, on the extended reals, one ray at a time.

  A ray carries three 128 × 128 matrices (points × features): `A`, `B` and `V`. The attention of a ray is
    score  S i j = (∑ d, B i d · A j d) / sqrt (∑ d, A i d²)          -- row i of the products divided by the norm of row i of A
    weight P i j = exp (S i j − max_k S k j) / ∑ k, exp (S k j − max_k S k j)   -- a softmax DOWN each column j
    attn   i d   = ∑ j, P i j · V j d.
  The first result is `attn` with A = rgb, B = depth, V = semantic; the second attention takes A = that result, B = depth,
  V = rgb, and its rows go through a two-layer perceptron whose first layer reads the row joined with the rgb row:
    hidden h = max ((∑ k<128, x k · W1 k h) + (∑ k<128, r k · W1 (128 + k) h) + b1 h) 0,   out d = (∑ h, hidden h · W2 h d) + b2 d.
  Joining the two rows into one of length 256 and summing over it once is the same number: a finite sum in a commutative
  monoid splits at any point (`sum_halves`, `hidden_join`); nothing here needs an entry to be finite.
  The maximum down a column starts from the f32 word of −∞, kept as a word: the same word on both sides.
-/
import Idealize.ShloMosaic.PureOps.Ideal
import Idealize.ShloMosaic.PureOps.Ideal.Laws
import Idealize.ShloMosaic.Lib.ValueIdx

noncomputable section

open scoped BigOperators

namespace Cert.Fusion

open Idealize.ShloMosaic Idealize.ShloMosaic.ValueIdx

/-- The f32 word of −∞ read as an extended real. -/
abbrev negInf : EReal := Ideal.ofBits .f32 0xFF800000#32
/-- The f32 zero word read as an extended real. -/
abbrev zeroW : EReal := Ideal.ofBits .f32 0x00000000#32

/-- −∞ is the least extended real: a maximum with it is the other argument. -/
theorem max_negInf (y : EReal) : max negInf y = y := by
  show max (Ideal.ofBits .f32 0xFF800000#32) y = y
  simp [Ideal.ofBits, Ideal.ieee]

/-- One ray's matrix: points × features, or points × points. -/
abbrev Mat := Fin 128 → Fin 128 → EReal
/-- One point's feature row. -/
abbrev Row := Fin 128 → EReal

/-- Row `i` of `B` against row `j` of `A`, divided by the norm of row `i` of `A`. -/
def score (A B : Mat) : Mat := fun i j =>
  Ideal.div (∑ d : Fin 128, B i d * A j d) (Ideal.sqrt (∑ d : Fin 128, A i d * A i d))

/-- The maximum down column `j`, from −∞. -/
def colMax (S : Mat) (j : Fin 128) : EReal := (Finset.univ : Finset (Fin 128)).fold max negInf (fun i => S i j)

/-- The shifted exponentials of a softmax down the columns. -/
def expo (S : Mat) : Mat := fun i j => Ideal.exp (S i j - colMax S j)

/-- Normalise each column of `E` by its sum and apply the weights to the rows of `V`. -/
def weigh (E V : Mat) : Mat := fun i d => ∑ j : Fin 128, Ideal.div (E i j) (∑ k : Fin 128, E k j) * V j d

/-- One ray's attention. -/
def attn (A B V : Mat) : Mat := weigh (expo (score A B)) V

/-! ## The perceptron on one row -/

/-- Position `k` of the first half of a row of length 256. -/
def lo (k : Fin 128) : Fin 256 := ⟨k.val, by have := k.isLt; omega⟩
/-- Position `k` of the second half. -/
def hi (k : Fin 128) : Fin 256 := ⟨128 + k.val, by have := k.isLt; omega⟩

/-- A sum over 256 positions is the sum over the first 128 plus the sum over the last 128. -/
theorem sum_halves (f : Fin 256 → EReal) :
    ∑ k : Fin 256, f k = (∑ k : Fin 128, f (lo k)) + ∑ k : Fin 128, f (hi k) :=
  Fin.sum_univ_add (a := 128) (b := 128) f

/-- The first layer over the two halves of its weight matrix given apart: the attended row `x` against the first
    half, the rgb row `r` against the second, the bias, and the rectifier. -/
def hidden2 (Wa Wb : Fin 128 → Fin 256 → EReal) (b1 : Fin 256 → EReal) (x r : Row) (h : Fin 256) : EReal :=
  max ((∑ k : Fin 128, x k * Wa k h) + (∑ k : Fin 128, r k * Wb k h) + b1 h) zeroW

/-- The first layer over the whole 256 × 256 weight matrix. -/
def hidden (W1 : Fin 256 → Fin 256 → EReal) (b1 : Fin 256 → EReal) (x r : Row) : Fin 256 → EReal :=
  hidden2 (fun k => W1 (lo k)) (fun k => W1 (hi k)) b1 x r

/-- The second layer. -/
def outRow (W2 : Fin 256 → Fin 128 → EReal) (b2 : Row) (hid : Fin 256 → EReal) (d : Fin 128) : EReal :=
  (∑ h : Fin 256, hid h * W2 h d) + b2 d

/-- The two rows joined into one of length 256. -/
def join (x r : Row) (k : Fin 256) : EReal :=
  if h : k.val < 128 then x ⟨k.val, h⟩ else r ⟨k.val - 128, by have := k.isLt; omega⟩

theorem join_lo (x r : Row) (k : Fin 128) : join x r (lo k) = x k := by
  unfold join lo; rw [dif_pos k.isLt]
theorem join_hi (x r : Row) (k : Fin 128) : join x r (hi k) = r k := by
  unfold join hi
  rw [dif_neg (by show ¬ (128 + k.val < 128); omega)]
  exact congrArg r (Fin.ext (by show 128 + k.val - 128 = k.val; omega))

/-- One product sum over the joined row is the two half sums. -/
theorem hidden_join (W1 : Fin 256 → Fin 256 → EReal) (b1 : Fin 256 → EReal) (x r : Row) (h : Fin 256) :
    max ((∑ k : Fin 256, join x r k * W1 k h) + b1 h) zeroW = hidden W1 b1 x r h := by
  unfold hidden hidden2
  rw [sum_halves]
  simp only [join_lo, join_hi]

/-! ## Whole arrays: a batch of rays -/

/-- A batch of `B` rays. -/
abbrev Arr3 (B : Nat) := (⟨3, ![B, 128, 128]⟩ : Shape).Idx → EReal

/-- Ray `r` of a batch, as a matrix. -/
def ray {B : Nat} (x : Arr3 B) (r : Fin B) : Mat := fun p d => x (ix3 r p d)

/-- A rank-2 array as a function of its two coordinates, a rank-1 array of its one. -/
def mat2 {n k : Nat} (W : (⟨2, ![n, k]⟩ : Shape).Idx → EReal) : Fin n → Fin k → EReal := fun a b => W (ix2 a b)
def vec1 {n : Nat} (b : (⟨1, ![n]⟩ : Shape).Idx → EReal) : Fin n → EReal := fun a => b (ix1 a)

/-- The first result: each ray's attention with A = rgb, B = depth, V = semantic. -/
def fused {B : Nat} (sem depth rgb : Arr3 B) : Arr3 B := fun i =>
  attn (ray rgb (i 0)) (ray depth (i 0)) (ray sem (i 0)) (i 1) (i 2)

/-- The row the perceptron reads at ray `r`, point `p`: the second attention (A = the first result, B = depth, V = rgb). -/
def attended {B : Nat} (sem depth rgb : Arr3 B) (r : Fin B) (p : Fin 128) : Row :=
  attn (ray (fused sem depth rgb) r) (ray depth r) (ray rgb r) p

/-- The second result over the weight matrix's two halves given apart. -/
def out2 {B : Nat} (sem depth rgb : Arr3 B) (Wa Wb : Fin 128 → Fin 256 → EReal) (b1 : Fin 256 → EReal)
    (W2 : Fin 256 → Fin 128 → EReal) (b2 : Row) : Arr3 B := fun i =>
  outRow W2 b2 (hidden2 Wa Wb b1 (attended sem depth rgb (i 0) (i 1)) (ray rgb (i 0) (i 1))) (i 2)

/-- The second result. -/
def out {B : Nat} (sem depth rgb : Arr3 B) (W1 : Fin 256 → Fin 256 → EReal) (b1 : Fin 256 → EReal)
    (W2 : Fin 256 → Fin 128 → EReal) (b2 : Row) : Arr3 B :=
  out2 sem depth rgb (fun k => W1 (lo k)) (fun k => W1 (hi k)) b1 W2 b2

/-- Each result at a ray depends only on that ray of the arguments: two batches that agree on a ray give the same
    results there. -/
theorem fused_of_ray {B B' : Nat} (s d r : Arr3 B) (s' d' r' : Arr3 B') (b : Fin B) (b' : Fin B')
    (hs : ray s b = ray s' b') (hd : ray d b = ray d' b') (hr : ray r b = ray r' b') (p q : Fin 128) :
    fused s d r (ix3 b p q) = fused s' d' r' (ix3 b' p q) := by
  show attn (ray r b) (ray d b) (ray s b) p q = attn (ray r' b') (ray d' b') (ray s' b') p q
  rw [hs, hd, hr]

theorem ray_fused_of_ray {B B' : Nat} (s d r : Arr3 B) (s' d' r' : Arr3 B') (b : Fin B) (b' : Fin B')
    (hs : ray s b = ray s' b') (hd : ray d b = ray d' b') (hr : ray r b = ray r' b') :
    ray (fused s d r) b = ray (fused s' d' r') b' :=
  funext fun p => funext fun q => fused_of_ray s d r s' d' r' b b' hs hd hr p q

theorem out2_of_ray {B B' : Nat} (s d r : Arr3 B) (s' d' r' : Arr3 B') (b : Fin B) (b' : Fin B')
    (hs : ray s b = ray s' b') (hd : ray d b = ray d' b') (hr : ray r b = ray r' b')
    (Wa Wb : Fin 128 → Fin 256 → EReal) (b1 : Fin 256 → EReal) (W2 : Fin 256 → Fin 128 → EReal) (b2 : Row) (p q : Fin 128) :
    out2 s d r Wa Wb b1 W2 b2 (ix3 b p q) = out2 s' d' r' Wa Wb b1 W2 b2 (ix3 b' p q) := by
  show outRow W2 b2 (hidden2 Wa Wb b1 (attn (ray (fused s d r) b) (ray d b) (ray r b) p) (ray r b p)) q
     = outRow W2 b2 (hidden2 Wa Wb b1 (attn (ray (fused s' d' r') b') (ray d' b') (ray r' b') p) (ray r' b' p)) q
  rw [ray_fused_of_ray s d r s' d' r' b b' hs hd hr, hd, hr]

end Cert.Fusion

end
-- ==== Proof.KOps.lean ====
/-
  The operations of one block (32 rays) of the kernel's body, read at an index, at the extended reals.

  A block is a [32, 128, 128] array: ray b, point i, feature d. Each operation that is not pointwise is read at
  explicit coordinates: a sum along the last axis or down the middle axis is the sum over that axis's 128 positions;
  the maximum down the middle axis is the fold of max from −∞ over them; the keepdims reshapes and broadcasts
  ([32,128] → [32,128,1] → [32,128,128] and [32,128] → [32,1,128] → [32,128,128]) copy an entry along the new axis;
  the two batched matrix products contract the last axis of both operands (rows against rows: the scores) or the last
  axis of the left with the middle axis of the right (weights against values), ray by ray.
  From these, the two halves of one attention — the shifted exponentials of the scores, and the normalised weights
  applied to the values — are, ray by ray, the functions `expo (score A B)` and `weigh E V` of the ray's matrices.
-/
import proofs.«139417_j64063732187319_2_alg».proof.Proof.Gen.KernelIdeal.Skeleton
import proofs.«139417_j64063732187319_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Fusion

/-! ## Sums and the maximum along one axis -/

/-- A sum along the feature axis. -/
theorem sum_features (v : FVec Ideal S32x128x128 .f32) (b : Fin 32) (i : Fin 128) :
    multiReduction .add [2] S32x128 v 0x00000000#32 reduces_S32x128x128_S32x128 (.inl rfl) rfl (ix2 b i)
      = ∑ d : Fin 128, v (ix3 b i d) := by
  refine (Ideal.multiReduction_add_single v 0x00000000#32 reduces_S32x128x128_S32x128 (.inl rfl) rfl (ix2 b i)).trans ?_
  exact Finset.sum_congr rfl fun d _ => congrArg v (funext fun a => Fin.ext (by
    match a with | ⟨0, _⟩ => rfl | ⟨1, _⟩ => rfl | ⟨2, _⟩ => rfl))

/-- A sum down the point axis (a column of a ray's matrix). -/
theorem sum_points (v : FVec Ideal S32x128x128 .f32) (b : Fin 32) (j : Fin 128) :
    multiReduction .add [1] S32x128 v 0x00000000#32 reduces_S32x128x128_S32x128_2 (.inl rfl) rfl (ix2 b j)
      = ∑ i : Fin 128, v (ix3 b i j) := by
  refine (Ideal.multiReduction_add_single v 0x00000000#32 reduces_S32x128x128_S32x128_2 (.inl rfl) rfl (ix2 b j)).trans ?_
  exact Finset.sum_congr rfl fun i _ => congrArg v (funext fun a => Fin.ext (by
    match a with | ⟨0, _⟩ => rfl | ⟨1, _⟩ => rfl | ⟨2, _⟩ => rfl))

/-- The maximum down the point axis, from −∞. -/
theorem max_points (v : FVec Ideal S32x128x128 .f32) (b : Fin 32) (j : Fin 128) :
    multiReduction .maximumf [1] S32x128 v 0xFF800000#32 reduces_S32x128x128_S32x128_2 (.inl rfl) rfl (ix2 b j)
      = (Finset.univ : Finset (Fin 128)).fold max negInf (fun i => v (ix3 b i j)) := by
  refine (Ideal.multiReduction_maximumf_single v 0xFF800000#32 reduces_S32x128x128_S32x128_2 (.inl rfl) rfl (ix2 b j)).trans ?_
  have hf : (v ∘ reduces_S32x128x128_S32x128_2.lift (ix2 b j)) = fun i : Fin 128 => v (ix3 b i j) :=
    funext fun i => congrArg v (funext fun a => Fin.ext (by
      match a with | ⟨0, _⟩ => rfl | ⟨1, _⟩ => rfl | ⟨2, _⟩ => rfl))
  exact congrArg (fun f => Finset.fold max negInf f (Finset.univ : Finset (Fin 128))) hf

/-! ## The keepdims reshapes and broadcasts -/

/-- [32,128] → [32,128,1]: entry (b, i) sits at (b, i, 0). -/
theorem cast_col (v : FVec Ideal S32x128 .f32) (b : Fin 32) (i : Fin 128) (z : Fin 1) :
    shapeCast S32x128x1 v shapeCasts_S32x128_S32x128x1 (ix3 b i z) = v (ix2 b i) := by
  refine shapeCast_apply v shapeCasts_S32x128_S32x128x1 (ix3 b i z) (ix2 b i) ?_
  rw [Shape.rowMajor_val_two, Shape.rowMajor_val_three]
  show b.val * 128 + i.val = (b.val * 128 + i.val) * 1 + z.val
  have := z.isLt; omega

/-- [32,128,1] → [32,128,128]: the entry of row i, along the row. -/
theorem bcast_col (v : FVec Ideal S32x128x1 .f32) (b : Fin 32) (i j : Fin 128) :
    broadcastTo S32x128x128 v broadcasts_S32x128x1_S32x128x128 (ix3 b i j) = v (ix3 b i (0 : Fin 1)) := by
  refine broadcastTo_apply v broadcasts_S32x128x1_S32x128x128 (ix3 b i j) (ix3 b i (0 : Fin 1)) (fun a => ?_)
  match a with
  | ⟨0, _⟩ => show b.val = if (32 : Nat) = 1 then 0 else b.val; rw [if_neg (by decide)]
  | ⟨1, _⟩ => show i.val = if (128 : Nat) = 1 then 0 else i.val; rw [if_neg (by decide)]
  | ⟨2, _⟩ => show 0 = if (1 : Nat) = 1 then 0 else j.val; rw [if_pos rfl]

/-- [32,128] → [32,1,128]: entry (b, j) sits at (b, 0, j). -/
theorem cast_row (v : FVec Ideal S32x128 .f32) (b : Fin 32) (z : Fin 1) (j : Fin 128) :
    shapeCast S32x1x128 v shapeCasts_S32x128_S32x1x128 (ix3 b z j) = v (ix2 b j) := by
  refine shapeCast_apply v shapeCasts_S32x128_S32x1x128 (ix3 b z j) (ix2 b j) ?_
  rw [Shape.rowMajor_val_two, Shape.rowMajor_val_three]
  show b.val * 128 + j.val = (b.val * 1 + z.val) * 128 + j.val
  have := z.isLt; omega

/-- [32,1,128] → [32,128,128]: the entry of column j, down the column. -/
theorem bcast_row (v : FVec Ideal S32x1x128 .f32) (b : Fin 32) (i j : Fin 128) :
    broadcastTo S32x128x128 v broadcasts_S32x1x128_S32x128x128 (ix3 b i j) = v (ix3 b (0 : Fin 1) j) := by
  refine broadcastTo_apply v broadcasts_S32x1x128_S32x128x128 (ix3 b i j) (ix3 b (0 : Fin 1) j) (fun a => ?_)
  match a with
  | ⟨0, _⟩ => show b.val = if (32 : Nat) = 1 then 0 else b.val; rw [if_neg (by decide)]
  | ⟨1, _⟩ => show 0 = if (1 : Nat) = 1 then 0 else i.val; rw [if_pos rfl]
  | ⟨2, _⟩ => show j.val = if (128 : Nat) = 1 then 0 else j.val; rw [if_neg (by decide)]

/-! ## The two batched matrix products -/

/-! The operand indices of the rows-against-rows product at output (b, i, j) and contraction position q:
    the left operand is read at (b, i, q), the right at (b, j, q). -/
theorem rows_l0 (j : S32x128x128.Idx) (q : dot_S32x128x128_S32x128x128_S32x128x128_2_2_1_1_0_0.contr.Idx) : (dot_S32x128x128_S32x128x128_S32x128x128_2_2_1_1_0_0.lhsIdx j q 0).val = (j 0).val := by
  unfold DotDims.lhsIdx
  rw [dif_pos (show (0 : Fin S32x128x128.rank) ∈ dot_S32x128x128_S32x128x128_S32x128x128_2_2_1_1_0_0.lhsBatch by decide)]
  rfl
theorem rows_l1 (j : S32x128x128.Idx) (q : dot_S32x128x128_S32x128x128_S32x128x128_2_2_1_1_0_0.contr.Idx) : (dot_S32x128x128_S32x128x128_S32x128x128_2_2_1_1_0_0.lhsIdx j q 1).val = (j 1).val := by
  unfold DotDims.lhsIdx
  rw [dif_neg (show ¬(1 : Fin S32x128x128.rank) ∈ dot_S32x128x128_S32x128x128_S32x128x128_2_2_1_1_0_0.lhsBatch by decide), dif_pos (show (1 : Fin S32x128x128.rank) ∈ dot_S32x128x128_S32x128x128_S32x128x128_2_2_1_1_0_0.lhsNonContracting by decide)]
  rfl
theorem rows_l2 (j : S32x128x128.Idx) (q : dot_S32x128x128_S32x128x128_S32x128x128_2_2_1_1_0_0.contr.Idx) : (dot_S32x128x128_S32x128x128_S32x128x128_2_2_1_1_0_0.lhsIdx j q 2).val = (q ⟨0, by decide⟩).val :=
  dot_S32x128x128_S32x128x128_S32x128x128_2_2_1_1_0_0.lhsIdx_val_of_single rfl j q
theorem rows_r0 (j : S32x128x128.Idx) (q : dot_S32x128x128_S32x128x128_S32x128x128_2_2_1_1_0_0.contr.Idx) : (dot_S32x128x128_S32x128x128_S32x128x128_2_2_1_1_0_0.rhsIdx j q 0).val = (j 0).val := by
  unfold DotDims.rhsIdx
  rw [dif_pos (show (0 : Fin S32x128x128.rank) ∈ dot_S32x128x128_S32x128x128_S32x128x128_2_2_1_1_0_0.rhsBatch by decide)]
  rfl
theorem rows_r1 (j : S32x128x128.Idx) (q : dot_S32x128x128_S32x128x128_S32x128x128_2_2_1_1_0_0.contr.Idx) : (dot_S32x128x128_S32x128x128_S32x128x128_2_2_1_1_0_0.rhsIdx j q 1).val = (j 2).val := by
  unfold DotDims.rhsIdx
  rw [dif_neg (show ¬(1 : Fin S32x128x128.rank) ∈ dot_S32x128x128_S32x128x128_S32x128x128_2_2_1_1_0_0.rhsBatch by decide), dif_pos (show (1 : Fin S32x128x128.rank) ∈ dot_S32x128x128_S32x128x128_S32x128x128_2_2_1_1_0_0.rhsNonContracting by decide)]
  rfl
theorem rows_r2 (j : S32x128x128.Idx) (q : dot_S32x128x128_S32x128x128_S32x128x128_2_2_1_1_0_0.contr.Idx) : (dot_S32x128x128_S32x128x128_S32x128x128_2_2_1_1_0_0.rhsIdx j q 2).val = (q ⟨0, by decide⟩).val :=
  dot_S32x128x128_S32x128x128_S32x128x128_2_2_1_1_0_0.rhsIdx_val_of_single rfl j q

/-- Rows against rows, ray by ray: entry (b, i, j) is the sum over features of left (b, i, ·) times right (b, j, ·). -/
theorem mm_rows (l r : FVec Ideal S32x128x128 .bf16) (b : Fin 32) (i j : Fin 128) :
    matmul dot_S32x128x128_S32x128x128_S32x128x128_2_2_1_1_0_0 none l r (constant S32x128x128 .f32 0x00000000#32) (ix3 b i j)
      = ∑ d : Fin 128, l (ix3 b i d) * r (ix3 b j d) := by
  refine (Ideal.matmul_constant_zero_apply dot_S32x128x128_S32x128x128_S32x128x128_2_2_1_1_0_0 none l r (ix3 b i j)).trans ?_
  rw [← Equiv.sum_comp (contrEquiv1 dot_S32x128x128_S32x128x128_S32x128x128_2_2_1_1_0_0 128 rfl rfl).symm]
  refine Finset.sum_congr rfl fun k _ => ?_
  have hk := contrEquiv1_symm_val dot_S32x128x128_S32x128x128_S32x128x128_2_2_1_1_0_0 128 rfl rfl k
  have el : dot_S32x128x128_S32x128x128_S32x128x128_2_2_1_1_0_0.lhsIdx (ix3 b i j) ((contrEquiv1 dot_S32x128x128_S32x128x128_S32x128x128_2_2_1_1_0_0 128 rfl rfl).symm k) = ix3 b i k := funext fun a => Fin.ext (by
    match a with
    | ⟨0, _⟩ => exact rows_l0 _ _
    | ⟨1, _⟩ => exact rows_l1 _ _
    | ⟨2, _⟩ => exact (rows_l2 _ _).trans hk)
  have er : dot_S32x128x128_S32x128x128_S32x128x128_2_2_1_1_0_0.rhsIdx (ix3 b i j) ((contrEquiv1 dot_S32x128x128_S32x128x128_S32x128x128_2_2_1_1_0_0 128 rfl rfl).symm k) = ix3 b j k := funext fun a => Fin.ext (by
    match a with
    | ⟨0, _⟩ => exact rows_r0 _ _
    | ⟨1, _⟩ => exact rows_r1 _ _
    | ⟨2, _⟩ => exact (rows_r2 _ _).trans hk)
  rw [el, er]

/-! The operand indices of the weights-against-values product at output (b, i, d) and contraction position q:
    the left operand is read at (b, i, q), the right at (b, q, d). -/
theorem vals_l0 (j : S32x128x128.Idx) (q : dot_S32x128x128_S32x128x128_S32x128x128_2_1_1_2_0_0.contr.Idx) : (dot_S32x128x128_S32x128x128_S32x128x128_2_1_1_2_0_0.lhsIdx j q 0).val = (j 0).val := by
  unfold DotDims.lhsIdx
  rw [dif_pos (show (0 : Fin S32x128x128.rank) ∈ dot_S32x128x128_S32x128x128_S32x128x128_2_1_1_2_0_0.lhsBatch by decide)]
  rfl
theorem vals_l1 (j : S32x128x128.Idx) (q : dot_S32x128x128_S32x128x128_S32x128x128_2_1_1_2_0_0.contr.Idx) : (dot_S32x128x128_S32x128x128_S32x128x128_2_1_1_2_0_0.lhsIdx j q 1).val = (j 1).val := by
  unfold DotDims.lhsIdx
  rw [dif_neg (show ¬(1 : Fin S32x128x128.rank) ∈ dot_S32x128x128_S32x128x128_S32x128x128_2_1_1_2_0_0.lhsBatch by decide), dif_pos (show (1 : Fin S32x128x128.rank) ∈ dot_S32x128x128_S32x128x128_S32x128x128_2_1_1_2_0_0.lhsNonContracting by decide)]
  rfl
theorem vals_l2 (j : S32x128x128.Idx) (q : dot_S32x128x128_S32x128x128_S32x128x128_2_1_1_2_0_0.contr.Idx) : (dot_S32x128x128_S32x128x128_S32x128x128_2_1_1_2_0_0.lhsIdx j q 2).val = (q ⟨0, by decide⟩).val :=
  dot_S32x128x128_S32x128x128_S32x128x128_2_1_1_2_0_0.lhsIdx_val_of_single rfl j q
theorem vals_r0 (j : S32x128x128.Idx) (q : dot_S32x128x128_S32x128x128_S32x128x128_2_1_1_2_0_0.contr.Idx) : (dot_S32x128x128_S32x128x128_S32x128x128_2_1_1_2_0_0.rhsIdx j q 0).val = (j 0).val := by
  unfold DotDims.rhsIdx
  rw [dif_pos (show (0 : Fin S32x128x128.rank) ∈ dot_S32x128x128_S32x128x128_S32x128x128_2_1_1_2_0_0.rhsBatch by decide)]
  rfl
theorem vals_r1 (j : S32x128x128.Idx) (q : dot_S32x128x128_S32x128x128_S32x128x128_2_1_1_2_0_0.contr.Idx) : (dot_S32x128x128_S32x128x128_S32x128x128_2_1_1_2_0_0.rhsIdx j q 1).val = (q ⟨0, by decide⟩).val :=
  dot_S32x128x128_S32x128x128_S32x128x128_2_1_1_2_0_0.rhsIdx_val_of_single rfl j q
theorem vals_r2 (j : S32x128x128.Idx) (q : dot_S32x128x128_S32x128x128_S32x128x128_2_1_1_2_0_0.contr.Idx) : (dot_S32x128x128_S32x128x128_S32x128x128_2_1_1_2_0_0.rhsIdx j q 2).val = (j 2).val := by
  unfold DotDims.rhsIdx
  rw [dif_neg (show ¬(2 : Fin S32x128x128.rank) ∈ dot_S32x128x128_S32x128x128_S32x128x128_2_1_1_2_0_0.rhsBatch by decide), dif_pos (show (2 : Fin S32x128x128.rank) ∈ dot_S32x128x128_S32x128x128_S32x128x128_2_1_1_2_0_0.rhsNonContracting by decide)]
  rfl

/-- Weights against values, ray by ray: entry (b, i, d) is the sum over points j of left (b, i, j) times right (b, j, d). -/
theorem mm_values (l r : FVec Ideal S32x128x128 .bf16) (b : Fin 32) (i d : Fin 128) :
    matmul dot_S32x128x128_S32x128x128_S32x128x128_2_1_1_2_0_0 none l r (constant S32x128x128 .f32 0x00000000#32) (ix3 b i d)
      = ∑ j : Fin 128, l (ix3 b i j) * r (ix3 b j d) := by
  refine (Ideal.matmul_constant_zero_apply dot_S32x128x128_S32x128x128_S32x128x128_2_1_1_2_0_0 none l r (ix3 b i d)).trans ?_
  rw [← Equiv.sum_comp (contrEquiv1 dot_S32x128x128_S32x128x128_S32x128x128_2_1_1_2_0_0 128 rfl rfl).symm]
  refine Finset.sum_congr rfl fun k _ => ?_
  have hk := contrEquiv1_symm_val dot_S32x128x128_S32x128x128_S32x128x128_2_1_1_2_0_0 128 rfl rfl k
  have el : dot_S32x128x128_S32x128x128_S32x128x128_2_1_1_2_0_0.lhsIdx (ix3 b i d) ((contrEquiv1 dot_S32x128x128_S32x128x128_S32x128x128_2_1_1_2_0_0 128 rfl rfl).symm k) = ix3 b i k := funext fun a => Fin.ext (by
    match a with
    | ⟨0, _⟩ => exact vals_l0 _ _
    | ⟨1, _⟩ => exact vals_l1 _ _
    | ⟨2, _⟩ => exact (vals_l2 _ _).trans hk)
  have er : dot_S32x128x128_S32x128x128_S32x128x128_2_1_1_2_0_0.rhsIdx (ix3 b i d) ((contrEquiv1 dot_S32x128x128_S32x128x128_S32x128x128_2_1_1_2_0_0 128 rfl rfl).symm k) = ix3 b k d := funext fun a => Fin.ext (by
    match a with
    | ⟨0, _⟩ => exact vals_r0 _ _
    | ⟨1, _⟩ => exact (vals_r1 _ _).trans hk
    | ⟨2, _⟩ => exact vals_r2 _ _)
  rw [el, er]

end Cert.KernelIdeal.Block

end
-- ==== Proof.KAttn.lean ====
/-
  One attention over a block of 32 rays, as the body computes it, and what it is ray by ray.

  The body runs the attention twice. Each time it first forms, from the matrix A (in f32 for the norms, rounded for the
  products) and the rounded matrix B, the scores S = (B Aᵀ) / ‖A rows‖ and their shifted exponentials E = exp (S − max down
  each column) — `expScores` —, and then, from E and the rounded values V, the product of E normalised down each column
  with V — `weighted`. The first result is `weighted (expScores rgb depth) semantic`; the second attention's
  exponentials are `expScores` of that result and depth. At the extended reals a change of float format is the
  identity, so at ray b these are `expo (score A B)` and `weigh E V` of the ray's matrices, and the first result is
  each ray's `attn`.
-/
import proofs.«139417_j64063732187319_2_alg».proof.Proof.KOps

noncomputable section

open scoped BigOperators

namespace Cert.KernelIdeal.Block

open Cert.KernelIdeal Cert.KernelIdeal.Gen Idealize.ShloMosaic Idealize.ShloMosaic.ValueIdx Cert.Fusion

section AnyFloat
variable {F : FTy → Type} [FloatOps F]

/-- The norm of each row of `a`, as a column. -/
def normCol (a : FVec F S32x128x128 .f32) : FVec F S32x128x1 .f32 :=
  sqrt (shapeCast S32x128x1 (multiReduction .add [2] S32x128 (mulf a a) 0x00000000#32 reduces_S32x128x128_S32x128 (.inl rfl) rfl) shapeCasts_S32x128_S32x128x1)

/-- The scores: rows of `bbf` against rows of `a` (rounded), each row divided by the norm of that row of `a`. -/
def scores (a : FVec F S32x128x128 .f32) (bbf : FVec F S32x128x128 .bf16) : FVec F S32x128x128 .f32 :=
  divf (matmul dot_S32x128x128_S32x128x128_S32x128x128_2_2_1_1_0_0 none bbf (truncf .bf16 a bitsLt_bf16_f32) (constant S32x128x128 .f32 0x00000000#32))
    (broadcastTo S32x128x128 (normCol a) broadcasts_S32x128x1_S32x128x128)

/-- The maximum down each column, repeated down the column. -/
def colMaxB (s : FVec F S32x128x128 .f32) : FVec F S32x128x128 .f32 :=
  broadcastTo S32x128x128 (shapeCast S32x1x128 (multiReduction .maximumf [1] S32x128 s 0xFF800000#32 reduces_S32x128x128_S32x128_2 (.inl rfl) rfl) shapeCasts_S32x128_S32x1x128) broadcasts_S32x1x128_S32x128x128

/-- The shifted exponentials of the scores. -/
def expScores (a : FVec F S32x128x128 .f32) (bbf : FVec F S32x128x128 .bf16) : FVec F S32x128x128 .f32 :=
  exp (subf (scores a bbf) (colMaxB (scores a bbf)))

/-- The sum down each column, repeated down the column. -/
def colSumB (e : FVec F S32x128x128 .f32) : FVec F S32x128x128 .f32 :=
  broadcastTo S32x128x128 (shapeCast S32x1x128 (multiReduction .add [1] S32x128 e 0x00000000#32 reduces_S32x128x128_S32x128_2 (.inl rfl) rfl) shapeCasts_S32x128_S32x1x128) broadcasts_S32x1x128_S32x128x128

/-- The exponentials normalised down each column (rounded), times the values. -/
def weighted (e : FVec F S32x128x128 .f32) (vbf : FVec F S32x128x128 .bf16) : FVec F S32x128x128 .f32 :=
  matmul dot_S32x128x128_S32x128x128_S32x128x128_2_1_1_2_0_0 none (truncf .bf16 (divf e (colSumB e)) bitsLt_bf16_f32) vbf (constant S32x128x128 .f32 0x00000000#32)

/-- The first stored value is the attention of rgb (`v2`), depth (`v1`) and semantic (`v0`). -/
theorem pay4_eq (v0 v1 v2 : Vec F S32x128x128 .f32) :
    k0_pay4 v0 v1 v2 = weighted (expScores v2 (k0_pay2 v1)) (truncf .bf16 v0 bitsLt_bf16_f32) := rfl

/-- The second attention's exponentials: of the first result and depth. -/
theorem pay5_eq (v0 v1 v2 : Vec F S32x128x128 .f32) :
    k0_pay5 v0 v1 v2 = expScores (k0_pay4 v0 v1 v2) (k0_pay2 v1) := rfl

end AnyFloat

/-! ## At the extended reals, ray by ray -/

theorem normCol_apply (a : FVec Ideal S32x128x128 .f32) (b : Fin 32) (i : Fin 128) (z : Fin 1) :
    normCol a (ix3 b i z) = Ideal.sqrt (∑ d : Fin 128, a (ix3 b i d) * a (ix3 b i d)) := by
  unfold normCol
  show Ideal.sqrt (shapeCast S32x128x1 (multiReduction .add [2] S32x128 (mulf a a) 0x00000000#32 reduces_S32x128x128_S32x128 (.inl rfl) rfl) shapeCasts_S32x128_S32x128x1 (ix3 b i z)) = _
  rw [cast_col, sum_features]
  rfl

theorem scores_apply (a : FVec Ideal S32x128x128 .f32) (bbf : FVec Ideal S32x128x128 .bf16) (b : Fin 32) (i j : Fin 128) :
    scores a bbf (ix3 b i j) = score (ray a b) (ray bbf b) i j := by
  unfold scores
  show Ideal.div (matmul dot_S32x128x128_S32x128x128_S32x128x128_2_2_1_1_0_0 none bbf (truncf .bf16 a bitsLt_bf16_f32) (constant S32x128x128 .f32 0x00000000#32) (ix3 b i j))
      (broadcastTo S32x128x128 (normCol a) broadcasts_S32x128x1_S32x128x128 (ix3 b i j)) = _
  rw [mm_rows, bcast_col, normCol_apply]
  rfl

theorem expScores_apply (a : FVec Ideal S32x128x128 .f32) (bbf : FVec Ideal S32x128x128 .bf16) (b : Fin 32) (i j : Fin 128) :
    expScores a bbf (ix3 b i j) = expo (score (ray a b) (ray bbf b)) i j := by
  unfold expScores colMaxB
  show Ideal.exp (scores a bbf (ix3 b i j) - broadcastTo S32x128x128 (shapeCast S32x1x128 (multiReduction .maximumf [1] S32x128 (scores a bbf) 0xFF800000#32 reduces_S32x128x128_S32x128_2 (.inl rfl) rfl) shapeCasts_S32x128_S32x1x128) broadcasts_S32x1x128_S32x128x128 (ix3 b i j)) = _
  rw [bcast_row, cast_row, max_points, scores_apply]
  have h : (fun k : Fin 128 => scores a bbf (ix3 b k j)) = fun k => score (ray a b) (ray bbf b) k j :=
    funext fun k => scores_apply a bbf b k j
  rw [h]
  rfl

theorem weighted_apply (e : FVec Ideal S32x128x128 .f32) (vbf : FVec Ideal S32x128x128 .bf16) (b : Fin 32) (i d : Fin 128) :
    weighted e vbf (ix3 b i d) = weigh (ray e b) (ray vbf b) i d := by
  unfold weighted
  rw [mm_values]
  unfold weigh
  refine Finset.sum_congr rfl fun j _ => ?_
  show Ideal.div (e (ix3 b i j)) (colSumB e (ix3 b i j)) * vbf (ix3 b j d) = Ideal.div (ray e b i j) (∑ k : Fin 128, ray e b k j) * ray vbf b j d
  unfold colSumB
  rw [bcast_row, cast_row, sum_points]
  rfl

/-- The exponentials of one ray are `expo (score A B)` of that ray's matrices. -/
theorem ray_expScores (a : FVec Ideal S32x128x128 .f32) (bbf : FVec Ideal S32x128x128 .bf16) (b : Fin 32) :
    ray (expScores a bbf) b = expo (score (ray a b) (ray bbf b)) :=
  funext fun i => funext fun j => expScores_apply a bbf b i j

/-- The first stored value, at ray b, is that ray's attention. -/
theorem pay4_apply (v0 v1 v2 : Vec Ideal S32x128x128 .f32) (b : Fin 32) (i d : Fin 128) :
    k0_pay4 v0 v1 v2 (ix3 b i d) = attn (ray v2 b) (ray v1 b) (ray v0 b) i d := by
  rw [pay4_eq, weighted_apply, ray_expScores]
  rfl

/-- So the first stored block is `fused` of the three loaded blocks. -/
theorem pay4_fused (v0 v1 v2 : Vec Ideal S32x128x128 .f32) : k0_pay4 v0 v1 v2 = fused (B := 32) v0 v1 v2 :=
  funext fun j => by
    rw [eq_ix3 j]
    exact pay4_apply v0 v1 v2 (j 0) (j 1) (j 2)

/-- The second attention's exponentials at ray b. -/
theorem ray_pay5 (v0 v1 v2 : Vec Ideal S32x128x128 .f32) (b : Fin 32) :
    ray (k0_pay5 v0 v1 v2) b = expo (score (ray (fused (B := 32) v0 v1 v2) b) (ray v1 b)) := by
  rw [pay5_eq, ray_expScores, pay4_fused]
  rfl

end Cert.KernelIdeal.Block

end
-- ==== Proof.KMlp.lean ====
/-
  The perceptron over a block of 32 rays, as the body computes it, and what it is row by row.

  The body lays the block's 32 × 128 points out as the 4096 rows of a [4096, 128] matrix — point p of ray b is row
  b · 128 + p —, multiplies the attended rows by the first 128 rows of the first weight matrix and the rgb rows by its
  last 128 rows, adds the two products and the bias row, rectifies, multiplies by the second weight matrix, adds its bias
  row, and lays the 4096 rows back out as [32, 128, 128]. Row by row, at the extended reals, that is `hidden2` followed by
  `outRow` of the two rows at (b, p).
-/
import proofs.«139417_j64063732187319_2_alg».proof.Proof.KAttn

noncomputable section

open scoped BigOperators

namespace Cert.KernelIdeal.Block

open Cert.KernelIdeal Cert.KernelIdeal.Gen Idealize.ShloMosaic Idealize.ShloMosaic.ValueIdx Cert.Fusion

/-- Point p of ray b as a row of the flattened block. -/
def row (b : Fin 32) (p : Fin 128) : Fin 4096 := ⟨b.val * 128 + p.val, by have := b.isLt; have := p.isLt; omega⟩

/-! ## The reshapes and the bias rows -/

/-- [32,128,128] → [4096,128]: row b·128 + p is point p of ray b. -/
theorem flat_apply {φ : FTy} (v : FVec Ideal S32x128x128 φ) (b : Fin 32) (p d : Fin 128) :
    shapeCast S4096x128 v shapeCasts_S32x128x128_S4096x128 (ix2 (row b p) d) = v (ix3 b p d) := by
  refine shapeCast_apply v shapeCasts_S32x128x128_S4096x128 (ix2 (row b p) d) (ix3 b p d) ?_
  rw [Shape.rowMajor_val_two, Shape.rowMajor_val_three]
  rfl

/-- [4096,128] → [32,128,128]: the same correspondence back. -/
theorem unflat_apply (v : FVec Ideal S4096x128 .f32) (b : Fin 32) (p d : Fin 128) :
    shapeCast S32x128x128 v shapeCasts_S4096x128_S32x128x128 (ix3 b p d) = v (ix2 (row b p) d) := by
  refine shapeCast_apply v shapeCasts_S4096x128_S32x128x128 (ix3 b p d) (ix2 (row b p) d) ?_
  rw [Shape.rowMajor_val_two, Shape.rowMajor_val_three]
  rfl

/-- The first bias as a row repeated down the 4096 rows. -/
theorem bias256_apply (v : FVec Ideal S256 .f32) (q : Fin 4096) (h : Fin 256) :
    broadcastTo S4096x256 (shapeCast S1x256 v shapeCasts_S256_S1x256) broadcasts_S1x256_S4096x256 (ix2 q h) = v (ix1 h) := by
  refine (broadcastTo_apply (shapeCast S1x256 v shapeCasts_S256_S1x256) broadcasts_S1x256_S4096x256 (ix2 q h) (ix2 (0 : Fin 1) h) (fun a => ?_)).trans ?_
  · match a with
    | ⟨0, _⟩ => show 0 = if (1 : Nat) = 1 then 0 else q.val; rw [if_pos rfl]
    | ⟨1, _⟩ => show h.val = if (256 : Nat) = 1 then 0 else h.val; rw [if_neg (by decide)]
  · refine shapeCast_apply v shapeCasts_S256_S1x256 (ix2 (0 : Fin 1) h) (ix1 h) ?_
    rw [Shape.rowMajor_val_one, Shape.rowMajor_val_two]
    show h.val = 0 * 256 + h.val
    omega

/-- The second bias as a row repeated down the 4096 rows. -/
theorem bias128_apply (v : FVec Ideal S128 .f32) (q : Fin 4096) (d : Fin 128) :
    broadcastTo S4096x128 (shapeCast S1x128 v shapeCasts_S128_S1x128) broadcasts_S1x128_S4096x128 (ix2 q d) = v (ix1 d) := by
  refine (broadcastTo_apply (shapeCast S1x128 v shapeCasts_S128_S1x128) broadcasts_S1x128_S4096x128 (ix2 q d) (ix2 (0 : Fin 1) d) (fun a => ?_)).trans ?_
  · match a with
    | ⟨0, _⟩ => show 0 = if (1 : Nat) = 1 then 0 else q.val; rw [if_pos rfl]
    | ⟨1, _⟩ => show d.val = if (128 : Nat) = 1 then 0 else d.val; rw [if_neg (by decide)]
  · refine shapeCast_apply v shapeCasts_S128_S1x128 (ix2 (0 : Fin 1) d) (ix1 d) ?_
    rw [Shape.rowMajor_val_one, Shape.rowMajor_val_two]
    show d.val = 0 * 128 + d.val
    omega

/-! ## The two plain matrix products -/

theorem first_l0 (j : S4096x256.Idx) (q : dot_S4096x128_S128x256_S4096x256_1_0_0_1_n_n.contr.Idx) : (dot_S4096x128_S128x256_S4096x256_1_0_0_1_n_n.lhsIdx j q 0).val = (j 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem first_l1 (j : S4096x256.Idx) (q : dot_S4096x128_S128x256_S4096x256_1_0_0_1_n_n.contr.Idx) : (dot_S4096x128_S128x256_S4096x256_1_0_0_1_n_n.lhsIdx j q 1).val = (q ⟨0, by decide⟩).val :=
  dot_S4096x128_S128x256_S4096x256_1_0_0_1_n_n.lhsIdx_val_of_single rfl j q
theorem first_r0 (j : S4096x256.Idx) (q : dot_S4096x128_S128x256_S4096x256_1_0_0_1_n_n.contr.Idx) : (dot_S4096x128_S128x256_S4096x256_1_0_0_1_n_n.rhsIdx j q 0).val = (q ⟨0, by decide⟩).val :=
  dot_S4096x128_S128x256_S4096x256_1_0_0_1_n_n.rhsIdx_val_of_single rfl j q
theorem first_r1 (j : S4096x256.Idx) (q : dot_S4096x128_S128x256_S4096x256_1_0_0_1_n_n.contr.Idx) : (dot_S4096x128_S128x256_S4096x256_1_0_0_1_n_n.rhsIdx j q 1).val = (j 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- A [4096,128] × [128,256] product: entry (q, h) is the sum over k of left (q, k) times right (k, h). -/
theorem mm_first (l : FVec Ideal S4096x128 .bf16) (r : FVec Ideal S128x256 .bf16) (q : Fin 4096) (h : Fin 256) :
    matmul dot_S4096x128_S128x256_S4096x256_1_0_0_1_n_n none l r (constant S4096x256 .f32 0x00000000#32) (ix2 q h) = ∑ k : Fin 128, l (ix2 q k) * r (ix2 k h) := by
  refine (Ideal.matmul_constant_zero_apply dot_S4096x128_S128x256_S4096x256_1_0_0_1_n_n none l r (ix2 q h)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 q h) ((contrEquiv1 dot_S4096x128_S128x256_S4096x256_1_0_0_1_n_n 128 rfl rfl).symm k) = ix2 q k := funext fun a => Fin.ext (by
    match a with
    | ⟨0, _⟩ => exact first_l0 _ _
    | ⟨1, _⟩ => exact (first_l1 _ _).trans hk)
  have er : dot_S4096x128_S128x256_S4096x256_1_0_0_1_n_n.rhsIdx (ix2 q h) ((contrEquiv1 dot_S4096x128_S128x256_S4096x256_1_0_0_1_n_n 128 rfl rfl).symm k) = ix2 k h := funext fun a => Fin.ext (by
    match a with
    | ⟨0, _⟩ => exact (first_r0 _ _).trans hk
    | ⟨1, _⟩ => exact first_r1 _ _)
  rw [el, er]

theorem second_l0 (j : S4096x128.Idx) (q : dot_S4096x256_S256x128_S4096x128_1_0_0_1_n_n.contr.Idx) : (dot_S4096x256_S256x128_S4096x128_1_0_0_1_n_n.lhsIdx j q 0).val = (j 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem second_l1 (j : S4096x128.Idx) (q : dot_S4096x256_S256x128_S4096x128_1_0_0_1_n_n.contr.Idx) : (dot_S4096x256_S256x128_S4096x128_1_0_0_1_n_n.lhsIdx j q 1).val = (q ⟨0, by decide⟩).val :=
  dot_S4096x256_S256x128_S4096x128_1_0_0_1_n_n.lhsIdx_val_of_single rfl j q
theorem second_r0 (j : S4096x128.Idx) (q : dot_S4096x256_S256x128_S4096x128_1_0_0_1_n_n.contr.Idx) : (dot_S4096x256_S256x128_S4096x128_1_0_0_1_n_n.rhsIdx j q 0).val = (q ⟨0, by decide⟩).val :=
  dot_S4096x256_S256x128_S4096x128_1_0_0_1_n_n.rhsIdx_val_of_single rfl j q
theorem second_r1 (j : S4096x128.Idx) (q : dot_S4096x256_S256x128_S4096x128_1_0_0_1_n_n.contr.Idx) : (dot_S4096x256_S256x128_S4096x128_1_0_0_1_n_n.rhsIdx j q 1).val = (j 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- A [4096,256] × [256,128] product: entry (q, d) is the sum over h of left (q, h) times right (h, d). -/
theorem mm_second (l : FVec Ideal S4096x256 .bf16) (r : FVec Ideal S256x128 .bf16) (q : Fin 4096) (d : Fin 128) :
    matmul dot_S4096x256_S256x128_S4096x128_1_0_0_1_n_n none l r (constant S4096x128 .f32 0x00000000#32) (ix2 q d) = ∑ h : Fin 256, l (ix2 q h) * r (ix2 h d) := by
  refine (Ideal.matmul_constant_zero_apply dot_S4096x256_S256x128_S4096x128_1_0_0_1_n_n none l r (ix2 q d)).trans ?_
  rw [← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 q d) ((contrEquiv1 dot_S4096x256_S256x128_S4096x128_1_0_0_1_n_n 256 rfl rfl).symm k) = ix2 q k := funext fun a => Fin.ext (by
    match a with
    | ⟨0, _⟩ => exact second_l0 _ _
    | ⟨1, _⟩ => exact (second_l1 _ _).trans hk)
  have er : dot_S4096x256_S256x128_S4096x128_1_0_0_1_n_n.rhsIdx (ix2 q d) ((contrEquiv1 dot_S4096x256_S256x128_S4096x128_1_0_0_1_n_n 256 rfl rfl).symm k) = ix2 k d := funext fun a => Fin.ext (by
    match a with
    | ⟨0, _⟩ => exact (second_r0 _ _).trans hk
    | ⟨1, _⟩ => exact second_r1 _ _)
  rw [el, er]

/-! ## The perceptron -/

section AnyFloat
variable {F : FTy → Type} [FloatOps F]

/-- The rectified first layer over the flattened block. -/
def hiddenB (x : FVec F S32x128x128 .f32) (rbf : FVec F S32x128x128 .bf16) (w1a w1b : Vec F S128x256 .f32) (b1 : Vec F S256 .f32) :
    FVec F S4096x256 .f32 :=
  maximumf
    (addf
      (addf
        (matmul dot_S4096x128_S128x256_S4096x256_1_0_0_1_n_n none (truncf .bf16 (shapeCast S4096x128 x shapeCasts_S32x128x128_S4096x128) bitsLt_bf16_f32) (truncf .bf16 w1a bitsLt_bf16_f32) (constant S4096x256 .f32 0x00000000#32))
        (matmul dot_S4096x128_S128x256_S4096x256_1_0_0_1_n_n none (shapeCast S4096x128 rbf shapeCasts_S32x128x128_S4096x128) (truncf .bf16 w1b bitsLt_bf16_f32) (constant S4096x256 .f32 0x00000000#32)))
      (broadcastTo S4096x256 (shapeCast S1x256 b1 shapeCasts_S256_S1x256) broadcasts_S1x256_S4096x256))
    (broadcast S4096x256 (Scalar.ofBits .f32 0x00000000#32))

/-- Both layers, laid back out as a block. -/
def perceptron (x : FVec F S32x128x128 .f32) (rbf : FVec F S32x128x128 .bf16) (w1a w1b : Vec F S128x256 .f32) (b1 : Vec F S256 .f32)
    (w2 : Vec F S256x128 .f32) (b2 : Vec F S128 .f32) : FVec F S32x128x128 .f32 :=
  shapeCast S32x128x128
    (addf
      (matmul dot_S4096x256_S256x128_S4096x128_1_0_0_1_n_n none (truncf .bf16 (hiddenB x rbf w1a w1b b1) bitsLt_bf16_f32) (truncf .bf16 w2 bitsLt_bf16_f32) (constant S4096x128 .f32 0x00000000#32))
      (broadcastTo S4096x128 (shapeCast S1x128 b2 shapeCasts_S128_S1x128) broadcasts_S1x128_S4096x128))
    shapeCasts_S4096x128_S32x128x128

/-- The second stored value: the second attention's exponentials normalised and applied to rgb, then the perceptron. -/
theorem pay1_eq (v4 : FVec F S32x128x128 .bf16) (v37 : FVec F S32x128x128 .f32) (v47 v49 : Vec F S128x256 .f32) (v51 : Vec F S256 .f32)
    (v61 : Vec F S256x128 .f32) (v63 : Vec F S128 .f32) :
    k0_pay1 v4 v37 v47 v49 v51 v61 v63 = perceptron (weighted v37 v4) v4 v47 v49 v51 v61 v63 := rfl

end AnyFloat

theorem hiddenB_apply (x : FVec Ideal S32x128x128 .f32) (rbf : FVec Ideal S32x128x128 .bf16) (w1a w1b : Vec Ideal S128x256 .f32)
    (b1 : Vec Ideal S256 .f32) (b : Fin 32) (p : Fin 128) (h : Fin 256) :
    hiddenB x rbf w1a w1b b1 (ix2 (row b p) h)
      = hidden2 (mat2 w1a) (mat2 w1b) (vec1 b1) (fun k => x (ix3 b p k)) (fun k => rbf (ix3 b p k)) h := by
  have hA : matmul dot_S4096x128_S128x256_S4096x256_1_0_0_1_n_n none (truncf .bf16 (shapeCast S4096x128 x shapeCasts_S32x128x128_S4096x128) bitsLt_bf16_f32) (truncf .bf16 w1a bitsLt_bf16_f32) (constant S4096x256 .f32 0x00000000#32) (ix2 (row b p) h)
      = ∑ k : Fin 128, x (ix3 b p k) * mat2 w1a k h := by
    rw [mm_first]
    refine Finset.sum_congr rfl fun k _ => ?_
    show shapeCast S4096x128 x shapeCasts_S32x128x128_S4096x128 (ix2 (row b p) k) * w1a (ix2 k h) = _
    rw [flat_apply]
    rfl
  have hB : matmul dot_S4096x128_S128x256_S4096x256_1_0_0_1_n_n none (shapeCast S4096x128 rbf shapeCasts_S32x128x128_S4096x128) (truncf .bf16 w1b bitsLt_bf16_f32) (constant S4096x256 .f32 0x00000000#32) (ix2 (row b p) h)
      = ∑ k : Fin 128, rbf (ix3 b p k) * mat2 w1b k h := by
    rw [mm_first]
    refine Finset.sum_congr rfl fun k _ => ?_
    show shapeCast S4096x128 rbf shapeCasts_S32x128x128_S4096x128 (ix2 (row b p) k) * w1b (ix2 k h) = _
    rw [flat_apply]
    rfl
  unfold hiddenB
  show max (matmul dot_S4096x128_S128x256_S4096x256_1_0_0_1_n_n none (truncf .bf16 (shapeCast S4096x128 x shapeCasts_S32x128x128_S4096x128) bitsLt_bf16_f32) (truncf .bf16 w1a bitsLt_bf16_f32) (constant S4096x256 .f32 0x00000000#32) (ix2 (row b p) h)
        + matmul dot_S4096x128_S128x256_S4096x256_1_0_0_1_n_n none (shapeCast S4096x128 rbf shapeCasts_S32x128x128_S4096x128) (truncf .bf16 w1b bitsLt_bf16_f32) (constant S4096x256 .f32 0x00000000#32) (ix2 (row b p) h)
        + broadcastTo S4096x256 (shapeCast S1x256 b1 shapeCasts_S256_S1x256) broadcasts_S1x256_S4096x256 (ix2 (row b p) h))
      (Ideal.ofBits .f32 0x00000000#32) = _
  rw [hA, hB, bias256_apply]
  rfl

theorem perceptron_apply (x : FVec Ideal S32x128x128 .f32) (rbf : FVec Ideal S32x128x128 .bf16) (w1a w1b : Vec Ideal S128x256 .f32)
    (b1 : Vec Ideal S256 .f32) (w2 : Vec Ideal S256x128 .f32) (b2 : Vec Ideal S128 .f32) (b : Fin 32) (p d : Fin 128) :
    perceptron x rbf w1a w1b b1 w2 b2 (ix3 b p d)
      = outRow (mat2 w2) (vec1 b2) (hidden2 (mat2 w1a) (mat2 w1b) (vec1 b1) (fun k => x (ix3 b p k)) (fun k => rbf (ix3 b p k))) d := by
  unfold perceptron
  rw [unflat_apply]
  show matmul dot_S4096x256_S256x128_S4096x128_1_0_0_1_n_n none (truncf .bf16 (hiddenB x rbf w1a w1b b1) bitsLt_bf16_f32) (truncf .bf16 w2 bitsLt_bf16_f32) (constant S4096x128 .f32 0x00000000#32) (ix2 (row b p) d)
      + broadcastTo S4096x128 (shapeCast S1x128 b2 shapeCasts_S128_S1x128) broadcasts_S1x128_S4096x128 (ix2 (row b p) d) = _
  rw [mm_second, bias128_apply]
  unfold outRow
  refine congrArg (· + vec1 b2 d) (Finset.sum_congr rfl fun h _ => ?_)
  show hiddenB x rbf w1a w1b b1 (ix2 (row b p) h) * w2 (ix2 h d) = _
  rw [hiddenB_apply]
  rfl

end Cert.KernelIdeal.Block

end
-- ==== Proof.KPay.lean ====
/-
  The second stored block is the second result of the block's rays.

  The second stored value is the perceptron applied, row by row, to the second attention — whose matrix A is the first
  result of the same ray, B the depth and V the rgb of that ray — and to the ray's rgb row. So it is `out2` of the three
  loaded blocks, the two halves of the first weight matrix, the biases and the second weight matrix.
-/
import proofs.«139417_j64063732187319_2_alg».proof.Proof.KMlp

noncomputable section

open scoped BigOperators

namespace Cert.KernelIdeal.Block

open Cert.KernelIdeal Cert.KernelIdeal.Gen Idealize.ShloMosaic Idealize.ShloMosaic.ValueIdx Cert.Fusion

theorem pay1_apply (v0 v1 v2 : Vec Ideal S32x128x128 .f32) (w1a w1b : Vec Ideal S128x256 .f32) (b1 : Vec Ideal S256 .f32)
    (w2 : Vec Ideal S256x128 .f32) (b2 : Vec Ideal S128 .f32) (b : Fin 32) (p d : Fin 128) :
    k0_pay1 (k0_pay3 v2) (k0_pay5 v0 v1 v2) w1a w1b b1 w2 b2 (ix3 b p d)
      = out2 (B := 32) v0 v1 v2 (mat2 w1a) (mat2 w1b) (vec1 b1) (mat2 w2) (vec1 b2) (ix3 b p d) := by
  rw [pay1_eq, perceptron_apply]
  have hx : (fun k : Fin 128 => weighted (k0_pay5 v0 v1 v2) (k0_pay3 v2) (ix3 b p k)) = attended (B := 32) v0 v1 v2 b p :=
    funext fun k => by
      rw [weighted_apply, ray_pay5]
      rfl
  rw [hx]
  rfl

/-- As arrays over the block. -/
theorem pay1_out2 (v0 v1 v2 : Vec Ideal S32x128x128 .f32) (w1a w1b : Vec Ideal S128x256 .f32) (b1 : Vec Ideal S256 .f32)
    (w2 : Vec Ideal S256x128 .f32) (b2 : Vec Ideal S128 .f32) :
    k0_pay1 (k0_pay3 v2) (k0_pay5 v0 v1 v2) w1a w1b b1 w2 b2
      = out2 (B := 32) v0 v1 v2 (mat2 w1a) (mat2 w1b) (vec1 b1) (mat2 w2) (vec1 b2) :=
  funext fun j => by
    rw [eq_ix3 j]
    exact pay1_apply v0 v1 v2 w1a w1b b1 w2 b2 (j 0) (j 1) (j 2)

end Cert.KernelIdeal.Block

end
-- ==== Proof.KValue.lean ====
/-
  From blocks to whole arrays: what the two result arrays hold after the kernel's run.

  Grid point t handles rays 32·t … 32·t + 31: each of the three large input windows and both output windows has, at
  point t, the block of those rays (block index (t, 0, 0) of blocks of 32 × 128 × 128), and the four small windows hold
  their whole arrays at every point. So ray b of a block at point t is ray 32·t + b of the array, and what point t
  writes back — `fused`, `out2` of the blocks — is the block at t of `fused`, `out` of the arrays, because each
  result at a ray depends only on that ray of the arguments. The 128 blocks cover the arrays (ray r lies in the block of
  point r / 32), so after the run the two result arrays ARE `fused` and `out` of the argument arrays.
-/
import proofs.«139417_j64063732187319_2_alg».proof.Proof.Gen.KernelIdeal.Value
import proofs.«139417_j64063732187319_2_alg».proof.Proof.KPay

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Fusion Cert.KernelIdeal.Block
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the 128 grid points -/

/-- The three large input windows are at block (t, 0, 0). -/
theorem idx_in : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- So are the two output windows. -/
theorem idx_out : ∀ t : Fin cfg0.N,
    win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The four small windows are at block 0: their whole arrays. -/
theorem idx_small : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Ray b of the block at point t, as a ray of the array. -/
def gray (t : Fin cfg0.N) (b : Fin 32) : Fin 4096 :=
  ⟨t.val * 32 + b.val, by have := t.isLt; have hN : cfg0.N = 128 := N_0; have := b.isLt; omega⟩

/-! ## The input blocks read off the arrays -/

theorem blk_ray0 (c : Dev nD) (t : Fin cfg0.N) (b : Fin 32) :
    ray (B := 32) (iblk m c 0 t) b = ray (B := 4096) (V m c main_arg0) (gray t b) := by
  obtain ⟨e0, e1, e2, -⟩ := idx_in t
  funext p d
  show V m c main_arg0 (((cfg0.win 0).blk t).view.emb (ix3 b p d)) = V m c main_arg0 (ix3 (gray t b) p d)
  refine congrArg _ (funext fun a => Fin.ext ?_)
  match a with
  | ⟨0, _⟩ => show win0_0.index t (0 : Fin 3) * 32 + 1 * b.val = t.val * 32 + b.val; rw [e0]; omega
  | ⟨1, _⟩ => show win0_0.index t (1 : Fin 3) * 128 + 1 * p.val = p.val; rw [e1]; omega
  | ⟨2, _⟩ => show win0_0.index t (2 : Fin 3) * 128 + 1 * d.val = d.val; rw [e2]; omega

theorem blk_ray1 (c : Dev nD) (t : Fin cfg0.N) (b : Fin 32) :
    ray (B := 32) (iblk m c 1 t) b = ray (B := 4096) (V m c main_arg1) (gray t b) := by
  obtain ⟨-, -, -, e0, e1, e2, -⟩ := idx_in t
  funext p d
  show V m c main_arg1 (((cfg0.win 1).blk t).view.emb (ix3 b p d)) = V m c main_arg1 (ix3 (gray t b) p d)
  refine congrArg _ (funext fun a => Fin.ext ?_)
  match a with
  | ⟨0, _⟩ => show win0_1.index t (0 : Fin 3) * 32 + 1 * b.val = t.val * 32 + b.val; rw [e0]; omega
  | ⟨1, _⟩ => show win0_1.index t (1 : Fin 3) * 128 + 1 * p.val = p.val; rw [e1]; omega
  | ⟨2, _⟩ => show win0_1.index t (2 : Fin 3) * 128 + 1 * d.val = d.val; rw [e2]; omega

theorem blk_ray2 (c : Dev nD) (t : Fin cfg0.N) (b : Fin 32) :
    ray (B := 32) (iblk m c 2 t) b = ray (B := 4096) (V m c main_arg2) (gray t b) := by
  obtain ⟨-, -, -, -, -, -, e0, e1, e2⟩ := idx_in t
  funext p d
  show V m c main_arg2 (((cfg0.win 2).blk t).view.emb (ix3 b p d)) = V m c main_arg2 (ix3 (gray t b) p d)
  refine congrArg _ (funext fun a => Fin.ext ?_)
  match a with
  | ⟨0, _⟩ => show win0_2.index t (0 : Fin 3) * 32 + 1 * b.val = t.val * 32 + b.val; rw [e0]; omega
  | ⟨1, _⟩ => show win0_2.index t (1 : Fin 3) * 128 + 1 * p.val = p.val; rw [e1]; omega
  | ⟨2, _⟩ => show win0_2.index t (2 : Fin 3) * 128 + 1 * d.val = d.val; rw [e2]; omega

/-- The first half of the first weight matrix, loaded from rows 0 … 127. -/
theorem w1a_eq (c : Dev nD) (t : Fin cfg0.N) :
    mat2 (View.ld (iblk m c 3 t) r0_1) = fun k => mat2 (V m c main_arg3) (lo k) := by
  obtain ⟨e0, e1, -⟩ := idx_small t
  funext k h
  show V m c main_arg3 (((cfg0.win 3).blk t).view.emb (r0_1.idx (ix2 k h))) = V m c main_arg3 (ix2 (lo k) h)
  refine congrArg _ (funext fun a => Fin.ext ?_)
  match a with
  | ⟨0, _⟩ => show win0_3.index t (0 : Fin 2) * 256 + 1 * (0 + 1 * k.val) = k.val; rw [e0]; omega
  | ⟨1, _⟩ => show win0_3.index t (1 : Fin 2) * 256 + 1 * (0 + 1 * h.val) = h.val; rw [e1]; omega

/-- The second half, loaded from rows 128 … 255. -/
theorem w1b_eq (c : Dev nD) (t : Fin cfg0.N) :
    mat2 (View.ld (iblk m c 3 t) r0_2) = fun k => mat2 (V m c main_arg3) (hi k) := by
  obtain ⟨e0, e1, -⟩ := idx_small t
  funext k h
  show V m c main_arg3 (((cfg0.win 3).blk t).view.emb (r0_2.idx (ix2 k h))) = V m c main_arg3 (ix2 (hi k) h)
  refine congrArg _ (funext fun a => Fin.ext ?_)
  match a with
  | ⟨0, _⟩ => show win0_3.index t (0 : Fin 2) * 256 + 1 * (128 + 1 * k.val) = 128 + k.val; rw [e0]; omega
  | ⟨1, _⟩ => show win0_3.index t (1 : Fin 2) * 256 + 1 * (0 + 1 * h.val) = h.val; rw [e1]; omega

theorem b1_eq (c : Dev nD) (t : Fin cfg0.N) : vec1 (iblk m c 4 t) = vec1 (V m c main_arg4) := by
  obtain ⟨-, -, e0, -⟩ := idx_small t
  funext h
  show V m c main_arg4 (((cfg0.win 4).blk t).view.emb (ix1 h)) = V m c main_arg4 (ix1 h)
  refine congrArg _ (funext fun a => Fin.ext ?_)
  match a with
  | ⟨0, _⟩ => show win0_4.index t (0 : Fin 1) * 256 + 1 * h.val = h.val; rw [e0]; omega

theorem w2_eq (c : Dev nD) (t : Fin cfg0.N) : mat2 (iblk m c 5 t) = mat2 (V m c main_arg5) := by
  obtain ⟨-, -, -, e0, e1, -⟩ := idx_small t
  funext h d
  show V m c main_arg5 (((cfg0.win 5).blk t).view.emb (ix2 h d)) = V m c main_arg5 (ix2 h d)
  refine congrArg _ (funext fun a => Fin.ext ?_)
  match a with
  | ⟨0, _⟩ => show win0_5.index t (0 : Fin 2) * 256 + 1 * h.val = h.val; rw [e0]; omega
  | ⟨1, _⟩ => show win0_5.index t (1 : Fin 2) * 128 + 1 * d.val = d.val; rw [e1]; omega

theorem b2_eq (c : Dev nD) (t : Fin cfg0.N) : vec1 (iblk m c 6 t) = vec1 (V m c main_arg6) := by
  obtain ⟨-, -, -, -, -, e0⟩ := idx_small t
  funext d
  show V m c main_arg6 (((cfg0.win 6).blk t).view.emb (ix1 d)) = V m c main_arg6 (ix1 d)
  refine congrArg _ (funext fun a => Fin.ext ?_)
  match a with
  | ⟨0, _⟩ => show win0_6.index t (0 : Fin 1) * 128 + 1 * d.val = d.val; rw [e0]; omega

/-! ## What each point writes back is a block of the whole-array function -/

theorem emb7 (t : Fin cfg0.N) (b : Fin 32) (p d : Fin 128) :
    ((cfg0.win 7).blk t).view.emb (ix3 b p d) = ix3 (gray t b) p d := by
  obtain ⟨e0, e1, e2, -⟩ := idx_out t
  refine funext fun a => Fin.ext ?_
  match a with
  | ⟨0, _⟩ => show win0_7.index t (0 : Fin 3) * 32 + 1 * b.val = t.val * 32 + b.val; rw [e0]; omega
  | ⟨1, _⟩ => show win0_7.index t (1 : Fin 3) * 128 + 1 * p.val = p.val; rw [e1]; omega
  | ⟨2, _⟩ => show win0_7.index t (2 : Fin 3) * 128 + 1 * d.val = d.val; rw [e2]; omega

theorem emb8 (t : Fin cfg0.N) (b : Fin 32) (p d : Fin 128) :
    ((cfg0.win 8).blk t).view.emb (ix3 b p d) = ix3 (gray t b) p d := by
  obtain ⟨-, -, -, e0, e1, e2⟩ := idx_out t
  refine funext fun a => Fin.ext ?_
  match a with
  | ⟨0, _⟩ => show win0_8.index t (0 : Fin 3) * 32 + 1 * b.val = t.val * 32 + b.val; rw [e0]; omega
  | ⟨1, _⟩ => show win0_8.index t (1 : Fin 3) * 128 + 1 * p.val = p.val; rw [e1]; omega
  | ⟨2, _⟩ => show win0_8.index t (2 : Fin 3) * 128 + 1 * d.val = d.val; rw [e2]; omega

/-- The first result over the whole arrays. -/
abbrev G7 (c : Dev nD) : Arr3 4096 := fused (B := 4096) (V m c main_arg0) (V m c main_arg1) (V m c main_arg2)

/-- The second result over the whole arrays. -/
abbrev G8 (c : Dev nD) : Arr3 4096 :=
  out (B := 4096) (V m c main_arg0) (V m c main_arg1) (V m c main_arg2) (mat2 (V m c main_arg3)) (vec1 (V m c main_arg4))
    (mat2 (V m c main_arg5)) (vec1 (V m c main_arg6))

theorem flushed7_eq (c : Dev nD) (t : Fin cfg0.N) :
    (dats m 0 c).flushed 7 t = ((cfg0.win 7).blk t).view.read (Elt Ideal) (G7 m c) := by
  rw [Cert.KernelIdeal.Value.flushed7]
  unfold out0_7
  rw [View.canon_unit_zero hz3]
  simp only [View.ld_unit_zero (S := S32x128x128) hz3]
  funext j
  obtain ⟨b, p, d, rfl⟩ : ∃ (b : Fin 32) (p d : Fin 128), j = ix3 b p d := ⟨j 0, j 1, j 2, eq_ix3 j⟩
  show k0_pay4 (iblk m c 0 t) (iblk m c 1 t) (iblk m c 2 t) (ix3 b p d) = G7 m c (((cfg0.win 7).blk t).view.emb (ix3 b p d))
  rw [emb7 t b p d]
  refine (congrFun (pay4_fused (iblk m c 0 t) (iblk m c 1 t) (iblk m c 2 t)) (ix3 b p d)).trans ?_
  exact fused_of_ray (iblk m c 0 t) (iblk m c 1 t) (iblk m c 2 t) (V m c main_arg0) (V m c main_arg1) (V m c main_arg2)
    b (gray t b) (blk_ray0 m c t b) (blk_ray1 m c t b) (blk_ray2 m c t b) p d

theorem flushed8_eq (c : Dev nD) (t : Fin cfg0.N) :
    (dats m 0 c).flushed 8 t = ((cfg0.win 8).blk t).view.read (Elt Ideal) (G8 m c) := by
  rw [Cert.KernelIdeal.Value.flushed8]
  unfold out0_8
  rw [View.canon_unit_zero hz3]
  simp only [View.ld_unit_zero (S := S32x128x128) hz3, View.ld_unit_zero (S := S256) hz1, View.ld_unit_zero (S := S256x128) hz2,
    View.ld_unit_zero (S := S128) hz1]
  funext j
  obtain ⟨b, p, d, rfl⟩ : ∃ (b : Fin 32) (p d : Fin 128), j = ix3 b p d := ⟨j 0, j 1, j 2, eq_ix3 j⟩
  show k0_pay1 (k0_pay3 (iblk m c 2 t)) (k0_pay5 (iblk m c 0 t) (iblk m c 1 t) (iblk m c 2 t)) (View.ld (iblk m c 3 t) r0_1)
      (View.ld (iblk m c 3 t) r0_2) (iblk m c 4 t) (iblk m c 5 t) (iblk m c 6 t) (ix3 b p d)
    = G8 m c (((cfg0.win 8).blk t).view.emb (ix3 b p d))
  rw [emb8 t b p d]
  refine (pay1_apply (iblk m c 0 t) (iblk m c 1 t) (iblk m c 2 t) (View.ld (iblk m c 3 t) r0_1) (View.ld (iblk m c 3 t) r0_2)
    (iblk m c 4 t) (iblk m c 5 t) (iblk m c 6 t) b p d).trans ?_
  rw [w1a_eq m c t, w1b_eq m c t, b1_eq m c t, w2_eq m c t, b2_eq m c t]
  exact out2_of_ray (iblk m c 0 t) (iblk m c 1 t) (iblk m c 2 t) (V m c main_arg0) (V m c main_arg1) (V m c main_arg2)
    b (gray t b) (blk_ray0 m c t b) (blk_ray1 m c t b) (blk_ray2 m c t b) _ _ _ _ _ p d

/-! ## The blocks cover the arrays -/

theorem mem_blk7 (t : Fin cfg0.N) (i : S4096x128x128.Idx) :
    i ∈ ((cfg0.win 7).blk t).view.set ↔ ∀ a : Fin 3, win0_7.index t a * S32x128x128.size a ≤ (i a).val ∧ (i a).val < win0_7.index t a * S32x128x128.size a + S32x128x128.size a := by
  show i ∈ ((View.whole main_v0_0).slice (win0_7.rect t)).set ↔ _
  rw [View.set_slice_whole, Rect.mem_set_unit]
  exact Iff.rfl

theorem mem_blk8 (t : Fin cfg0.N) (i : S4096x128x128.Idx) :
    i ∈ ((cfg0.win 8).blk t).view.set ↔ ∀ a : Fin 3, win0_8.index t a * S32x128x128.size a ≤ (i a).val ∧ (i a).val < win0_8.index t a * S32x128x128.size a + S32x128x128.size a := by
  show i ∈ ((View.whole main_v0_1).slice (win0_8.rect t)).set ↔ _
  rw [View.set_slice_whole, Rect.mem_set_unit]
  exact Iff.rfl

/-- The point whose block holds ray r: r / 32. -/
def pointOf (i : S4096x128x128.Idx) : Fin cfg0.N :=
  ⟨(i 0).val / 32, by have := (i 0).isLt; have hN : cfg0.N = 128 := N_0; show (i 0).val / 32 < cfg0.N; rw [hN]; have h : (i 0).val < 4096 := this; omega⟩

theorem cover7 (i : S4096x128x128.Idx) : ∃ t : Fin cfg0.N, (cfg0.win 7).flush t = true ∧ i ∈ ((cfg0.win 7).blk t).view.set := by
  refine ⟨pointOf i, flush0_7 _, ?_⟩
  rw [mem_blk7]
  obtain ⟨e0, e1, e2, -⟩ := idx_out (pointOf i)
  have h0 : (i 0).val < 4096 := (i 0).isLt
  have h1 : (i 1).val < 128 := (i 1).isLt
  have h2 : (i 2).val < 128 := (i 2).isLt
  have hp : (pointOf i).val = (i 0).val / 32 := rfl
  intro a
  match a with
  | ⟨0, _⟩ => show win0_7.index (pointOf i) (0 : Fin 3) * 32 ≤ (i 0).val ∧ (i 0).val < win0_7.index (pointOf i) (0 : Fin 3) * 32 + 32; rw [e0, hp]; omega
  | ⟨1, _⟩ => show win0_7.index (pointOf i) (1 : Fin 3) * 128 ≤ (i 1).val ∧ (i 1).val < win0_7.index (pointOf i) (1 : Fin 3) * 128 + 128; rw [e1]; omega
  | ⟨2, _⟩ => show win0_7.index (pointOf i) (2 : Fin 3) * 128 ≤ (i 2).val ∧ (i 2).val < win0_7.index (pointOf i) (2 : Fin 3) * 128 + 128; rw [e2]; omega

theorem cover8 (i : S4096x128x128.Idx) : ∃ t : Fin cfg0.N, (cfg0.win 8).flush t = true ∧ i ∈ ((cfg0.win 8).blk t).view.set := by
  refine ⟨pointOf i, flush0_8 _, ?_⟩
  rw [mem_blk8]
  obtain ⟨-, -, -, e0, e1, e2⟩ := idx_out (pointOf i)
  have h0 : (i 0).val < 4096 := (i 0).isLt
  have h1 : (i 1).val < 128 := (i 1).isLt
  have h2 : (i 2).val < 128 := (i 2).isLt
  have hp : (pointOf i).val = (i 0).val / 32 := rfl
  intro a
  match a with
  | ⟨0, _⟩ => show win0_8.index (pointOf i) (0 : Fin 3) * 32 ≤ (i 0).val ∧ (i 0).val < win0_8.index (pointOf i) (0 : Fin 3) * 32 + 32; rw [e0, hp]; omega
  | ⟨1, _⟩ => show win0_8.index (pointOf i) (1 : Fin 3) * 128 ≤ (i 1).val ∧ (i 1).val < win0_8.index (pointOf i) (1 : Fin 3) * 128 + 128; rw [e1]; omega
  | ⟨2, _⟩ => show win0_8.index (pointOf i) (2 : Fin 3) * 128 ≤ (i 2).val ∧ (i 2).val < win0_8.index (pointOf i) (2 : Fin 3) * 128 + 128; rw [e2]; omega

/-! ## The arrays after the run -/

theorem final7 (c : Dev nD) : (dats m 0 c).arrAt 7 cfg0.N = G7 m c :=
  (dats m 0 c).arrAt_eq_of_cover 7 (G7 m c) (fun t _ => flushed7_eq m c t) cover7

theorem final8 (c : Dev nD) : (dats m 0 c).arrAt 8 cfg0.N = G8 m c :=
  (dats m 0 c).arrAt_eq_of_cover 8 (G8 m c) (fun t _ => flushed8_eq m c t) cover8

/-- The kernel's run with both result arrays at their functions of the argument arrays, the arguments unchanged. -/
theorem run : θ_run defs (onTc (τ := τ) (main (F := Ideal))) ⟨m, fun _ => 0, ρ⟩ fun r => ∀ c : Dev nD,
      r.2.mem ((c : Thread nD τ).loc main_v0_0) = G7 m c
      ∧ r.2.mem ((c : Thread nD τ).loc main_v0_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Cert.KernelIdeal.Value.run_blocks m ρ)

end Cert.KernelIdeal.Whole

end
-- ==== Proof.RefRun.lean ====
/-
  The run of the reference program, stated through its stage functions.

  The program is a straight line of 58 tensor operations with two results: main_v15 (written by the 23rd operation)
  and main_v41 (written by the last), which depends on main_v15 along a dozen paths. As one composed term of the
  arguments, main_v41's value repeats main_v15's term once per path. Here no such term is formed. The line is cut
  after the operation that writes main_v15 and again after the one that writes main_v31 (the left operand of the
  concatenation), by
      after (l₁ ++ l₂) V = after l₂ (after l₁ V).
  Each part is computed from ANY contents V of the buffers: the first gives val_main_v15 of V at the three arguments
  it reads; the second, from contents that hold val_main_v15 x0 x1 x2 at main_v15's buffer, gives val_main_v31 x0 x1 x2;
  the third, from contents that hold val_main_v31 x0 x1 x2 at main_v31's buffer, gives val_main_v41. In each part the
  earlier result enters only as the value held at one buffer, so it stays one folded term on both sides of the
  equation, and what is compared is the part's own operations against the stage functions' definitions (val_main_vN,
  one per operation). The second cut also makes both operands of the concatenation values held at buffers. No part
  writes an argument, and no later part writes an earlier result.
-/
import proofs.«139417_j64063732187319_2_alg».proof.Proof.Gen.ReferenceIdeal
import proofs.«139417_j64063732187319_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 23 operations, in order: through the one that writes the first result, main_v15. -/
abbrev ops1 : List (HloOp τ sig (Elt F)) :=
  [ TRef.binary (TRef.of (T := ⟨S4096x128x128, .f32⟩) main_arg2) (TRef.of (T := ⟨S4096x128x128, .f32⟩) main_arg2) (TRef.of (T := ⟨S4096x128x128, .f32⟩) main_call0_v0) mulf,
    TRef.nullary (TRef.of (T := ⟨S_, .f32⟩) main_call0_cst) (constant S_ .f32 0x00000000#32),
    TRef.binary (TRef.of (T := ⟨S4096x128x128, .f32⟩) main_call0_v0) (TRef.of (T := ⟨S_, .f32⟩) main_call0_cst) (TRef.of (T := ⟨S4096x128, .f32⟩) main_call0_v1) (fun x v => Host.reduceAdd x v reducesTo_S4096x128x128_S4096x128_d2 h_S_),
    TRef.unary (TRef.of (T := ⟨S4096x128, .f32⟩) main_call0_v1) (TRef.of (T := ⟨S4096x128x1, .f32⟩) main_call0_v2) (broadcastInDim S4096x128x1 ![0, 1] bcast_S4096x128_S4096x128x1_0_1),
    TRef.unary (TRef.of (T := ⟨S4096x128x1, .f32⟩) main_call0_v2) (TRef.of (T := ⟨S4096x128x1, .f32⟩) main_v0) Host.sqrt,
    binary main_arg1 main_arg2 main_v1 ((fun l r => Host.dotGeneral dot_S4096x128x128_S4096x128x128_S4096x128x128_2_2_1_1_0_0 none l r) : (⟨S4096x128x128, .f32⟩ : BufTy).Contents (Elt F) → (⟨S4096x128x128, .f32⟩ : BufTy).Contents (Elt F) → (⟨S4096x128x128, .f32⟩ : BufTy).Contents (Elt F)),
    unary main_v0 main_v2 (broadcastInDim S4096x128x128 ![0, 1, 2] bcast_S4096x128x1_S4096x128x128_0_1_2 : (⟨S4096x128x1, .f32⟩ : BufTy).Contents (Elt F) → (⟨S4096x128x128, .f32⟩ : BufTy).Contents (Elt F)),
    binary main_v1 main_v2 main_v3 (Host.divf : (⟨S4096x128x128, .f32⟩ : BufTy).Contents (Elt F) → (⟨S4096x128x128, .f32⟩ : BufTy).Contents (Elt F) → (⟨S4096x128x128, .f32⟩ : BufTy).Contents (Elt F)),
    nullary main_cst (constant S_ .f32 0xFF800000#32),
    binary main_v3 main_cst main_v4 ((fun x v => Host.reduce FloatOps.maximumf x v reducesTo_S4096x128x128_S4096x128_d1 h_S_) : (⟨S4096x128x128, .f32⟩ : BufTy).Contents (Elt F) → (⟨S_, .f32⟩ : BufTy).Contents (Elt F) → (⟨S4096x128, .f32⟩ : BufTy).Contents (Elt F)),
    nullary main_cst_0 (constant S_ .f32 0xFF800000#32),
    unary main_cst_0 main_v5 (broadcastInDim S4096x128 ![] bcast_S_S4096x128 : (⟨S_, .f32⟩ : BufTy).Contents (Elt F) → (⟨S4096x128, .f32⟩ : BufTy).Contents (Elt F)),
    binary main_v5 main_v4 main_v6 (maximumf : (⟨S4096x128, .f32⟩ : BufTy).Contents (Elt F) → (⟨S4096x128, .f32⟩ : BufTy).Contents (Elt F) → (⟨S4096x128, .f32⟩ : BufTy).Contents (Elt F)),
    unary main_v6 main_v7 (broadcastInDim S4096x1x128 ![0, 2] bcast_S4096x128_S4096x1x128_0_2 : (⟨S4096x128, .f32⟩ : BufTy).Contents (Elt F) → (⟨S4096x1x128, .f32⟩ : BufTy).Contents (Elt F)),
    unary main_v7 main_v8 (broadcastInDim S4096x128x128 ![0, 1, 2] bcast_S4096x1x128_S4096x128x128_0_1_2 : (⟨S4096x1x128, .f32⟩ : BufTy).Contents (Elt F) → (⟨S4096x128x128, .f32⟩ : BufTy).Contents (Elt F)),
    binary main_v3 main_v8 main_v9 (subf : (⟨S4096x128x128, .f32⟩ : BufTy).Contents (Elt F) → (⟨S4096x128x128, .f32⟩ : BufTy).Contents (Elt F) → (⟨S4096x128x128, .f32⟩ : BufTy).Contents (Elt F)),
    unary main_v9 main_v10 (Host.exp : (⟨S4096x128x128, .f32⟩ : BufTy).Contents (Elt F) → (⟨S4096x128x128, .f32⟩ : BufTy).Contents (Elt F)),
    nullary main_cst_1 (constant S_ .f32 0x00000000#32),
    binary main_v10 main_cst_1 main_v11 ((fun x v => Host.reduceAdd x v reducesTo_S4096x128x128_S4096x128_d1 h_S_) : (⟨S4096x128x128, .f32⟩ : BufTy).Contents (Elt F) → (⟨S_, .f32⟩ : BufTy).Contents (Elt F) → (⟨S4096x128, .f32⟩ : BufTy).Contents (Elt F)),
    unary main_v11 main_v12 (broadcastInDim S4096x1x128 ![0, 2] bcast_S4096x128_S4096x1x128_0_2 : (⟨S4096x128, .f32⟩ : BufTy).Contents (Elt F) → (⟨S4096x1x128, .f32⟩ : BufTy).Contents (Elt F)),
    unary main_v12 main_v13 (broadcastInDim S4096x128x128 ![0, 1, 2] bcast_S4096x1x128_S4096x128x128_0_1_2 : (⟨S4096x1x128, .f32⟩ : BufTy).Contents (Elt F) → (⟨S4096x128x128, .f32⟩ : BufTy).Contents (Elt F)),
    binary main_v10 main_v13 main_v14 (Host.divf : (⟨S4096x128x128, .f32⟩ : BufTy).Contents (Elt F) → (⟨S4096x128x128, .f32⟩ : BufTy).Contents (Elt F) → (⟨S4096x128x128, .f32⟩ : BufTy).Contents (Elt F)),
    binary main_v14 main_arg0 main_v15 ((fun l r => Host.dotGeneral dot_S4096x128x128_S4096x128x128_S4096x128x128_2_1_1_2_0_0 none l r) : (⟨S4096x128x128, .f32⟩ : BufTy).Contents (Elt F) → (⟨S4096x128x128, .f32⟩ : BufTy).Contents (Elt F) → (⟨S4096x128x128, .f32⟩ : BufTy).Contents (Elt F)) ]

/-- The next 23 operations, in order: from the first result to main_v31, the left operand of the concatenation. -/
abbrev ops2 : List (HloOp τ sig (Elt F)) :=
  [ TRef.binary (TRef.of (T := ⟨S4096x128x128, .f32⟩) main_v15) (TRef.of (T := ⟨S4096x128x128, .f32⟩) main_v15) (TRef.of (T := ⟨S4096x128x128, .f32⟩) main_call1_v0) mulf,
    TRef.nullary (TRef.of (T := ⟨S_, .f32⟩) main_call1_cst) (constant S_ .f32 0x00000000#32),
    TRef.binary (TRef.of (T := ⟨S4096x128x128, .f32⟩) main_call1_v0) (TRef.of (T := ⟨S_, .f32⟩) main_call1_cst) (TRef.of (T := ⟨S4096x128, .f32⟩) main_call1_v1) (fun x v => Host.reduceAdd x v reducesTo_S4096x128x128_S4096x128_d2 h_S_),
    TRef.unary (TRef.of (T := ⟨S4096x128, .f32⟩) main_call1_v1) (TRef.of (T := ⟨S4096x128x1, .f32⟩) main_call1_v2) (broadcastInDim S4096x128x1 ![0, 1] bcast_S4096x128_S4096x128x1_0_1),
    TRef.unary (TRef.of (T := ⟨S4096x128x1, .f32⟩) main_call1_v2) (TRef.of (T := ⟨S4096x128x1, .f32⟩) main_v16) Host.sqrt,
    binary main_arg1 main_v15 main_v17 ((fun l r => Host.dotGeneral dot_S4096x128x128_S4096x128x128_S4096x128x128_2_2_1_1_0_0 none l r) : (⟨S4096x128x128, .f32⟩ : BufTy).Contents (Elt F) → (⟨S4096x128x128, .f32⟩ : BufTy).Contents (Elt F) → (⟨S4096x128x128, .f32⟩ : BufTy).Contents (Elt F)),
    unary main_v16 main_v18 (broadcastInDim S4096x128x128 ![0, 1, 2] bcast_S4096x128x1_S4096x128x128_0_1_2 : (⟨S4096x128x1, .f32⟩ : BufTy).Contents (Elt F) → (⟨S4096x128x128, .f32⟩ : BufTy).Contents (Elt F)),
    binary main_v17 main_v18 main_v19 (Host.divf : (⟨S4096x128x128, .f32⟩ : BufTy).Contents (Elt F) → (⟨S4096x128x128, .f32⟩ : BufTy).Contents (Elt F) → (⟨S4096x128x128, .f32⟩ : BufTy).Contents (Elt F)),
    nullary main_cst_2 (constant S_ .f32 0xFF800000#32),
    binary main_v19 main_cst_2 main_v20 ((fun x v => Host.reduce FloatOps.maximumf x v reducesTo_S4096x128x128_S4096x128_d1 h_S_) : (⟨S4096x128x128, .f32⟩ : BufTy).Contents (Elt F) → (⟨S_, .f32⟩ : BufTy).Contents (Elt F) → (⟨S4096x128, .f32⟩ : BufTy).Contents (Elt F)),
    nullary main_cst_3 (constant S_ .f32 0xFF800000#32),
    unary main_cst_3 main_v21 (broadcastInDim S4096x128 ![] bcast_S_S4096x128 : (⟨S_, .f32⟩ : BufTy).Contents (Elt F) → (⟨S4096x128, .f32⟩ : BufTy).Contents (Elt F)),
    binary main_v21 main_v20 main_v22 (maximumf : (⟨S4096x128, .f32⟩ : BufTy).Contents (Elt F) → (⟨S4096x128, .f32⟩ : BufTy).Contents (Elt F) → (⟨S4096x128, .f32⟩ : BufTy).Contents (Elt F)),
    unary main_v22 main_v23 (broadcastInDim S4096x1x128 ![0, 2] bcast_S4096x128_S4096x1x128_0_2 : (⟨S4096x128, .f32⟩ : BufTy).Contents (Elt F) → (⟨S4096x1x128, .f32⟩ : BufTy).Contents (Elt F)),
    unary main_v23 main_v24 (broadcastInDim S4096x128x128 ![0, 1, 2] bcast_S4096x1x128_S4096x128x128_0_1_2 : (⟨S4096x1x128, .f32⟩ : BufTy).Contents (Elt F) → (⟨S4096x128x128, .f32⟩ : BufTy).Contents (Elt F)),
    binary main_v19 main_v24 main_v25 (subf : (⟨S4096x128x128, .f32⟩ : BufTy).Contents (Elt F) → (⟨S4096x128x128, .f32⟩ : BufTy).Contents (Elt F) → (⟨S4096x128x128, .f32⟩ : BufTy).Contents (Elt F)),
    unary main_v25 main_v26 (Host.exp : (⟨S4096x128x128, .f32⟩ : BufTy).Contents (Elt F) → (⟨S4096x128x128, .f32⟩ : BufTy).Contents (Elt F)),
    nullary main_cst_4 (constant S_ .f32 0x00000000#32),
    binary main_v26 main_cst_4 main_v27 ((fun x v => Host.reduceAdd x v reducesTo_S4096x128x128_S4096x128_d1 h_S_) : (⟨S4096x128x128, .f32⟩ : BufTy).Contents (Elt F) → (⟨S_, .f32⟩ : BufTy).Contents (Elt F) → (⟨S4096x128, .f32⟩ : BufTy).Contents (Elt F)),
    unary main_v27 main_v28 (broadcastInDim S4096x1x128 ![0, 2] bcast_S4096x128_S4096x1x128_0_2 : (⟨S4096x128, .f32⟩ : BufTy).Contents (Elt F) → (⟨S4096x1x128, .f32⟩ : BufTy).Contents (Elt F)),
    unary main_v28 main_v29 (broadcastInDim S4096x128x128 ![0, 1, 2] bcast_S4096x1x128_S4096x128x128_0_1_2 : (⟨S4096x1x128, .f32⟩ : BufTy).Contents (Elt F) → (⟨S4096x128x128, .f32⟩ : BufTy).Contents (Elt F)),
    binary main_v26 main_v29 main_v30 (Host.divf : (⟨S4096x128x128, .f32⟩ : BufTy).Contents (Elt F) → (⟨S4096x128x128, .f32⟩ : BufTy).Contents (Elt F) → (⟨S4096x128x128, .f32⟩ : BufTy).Contents (Elt F)),
    binary main_v30 main_arg2 main_v31 ((fun l r => Host.dotGeneral dot_S4096x128x128_S4096x128x128_S4096x128x128_2_1_1_2_0_0 none l r) : (⟨S4096x128x128, .f32⟩ : BufTy).Contents (Elt F) → (⟨S4096x128x128, .f32⟩ : BufTy).Contents (Elt F) → (⟨S4096x128x128, .f32⟩ : BufTy).Contents (Elt F)) ]

/-- The last 12 operations, in order: the concatenation and the two affine layers, to the second result main_v41. -/
abbrev ops3 : List (HloOp τ sig (Elt F)) :=
  [ binary main_v31 main_arg2 main_v32 ((fun a b => concatenate S4096x128x256 2 [⟨S4096x128x128, a⟩, ⟨S4096x128x128, b⟩] concatenates_S4096x128x128_S4096x128x128_S4096x128x256_d2) : (⟨S4096x128x128, .f32⟩ : BufTy).Contents (Elt F) → (⟨S4096x128x128, .f32⟩ : BufTy).Contents (Elt F) → (⟨S4096x128x256, .f32⟩ : BufTy).Contents (Elt F)),
    binary main_v32 main_arg3 main_v33 ((fun l r => Host.dotGeneral dot_S4096x128x256_S256x256_S4096x128x256_2_0_01_1_n_n none l r) : (⟨S4096x128x256, .f32⟩ : BufTy).Contents (Elt F) → (⟨S256x256, .f32⟩ : BufTy).Contents (Elt F) → (⟨S4096x128x256, .f32⟩ : BufTy).Contents (Elt F)),
    unary main_arg4 main_v34 (broadcastInDim S1x1x256 ![2] bcast_S256_S1x1x256_2 : (⟨S256, .f32⟩ : BufTy).Contents (Elt F) → (⟨S1x1x256, .f32⟩ : BufTy).Contents (Elt F)),
    unary main_v34 main_v35 (broadcastInDim S4096x128x256 ![0, 1, 2] bcast_S1x1x256_S4096x128x256_0_1_2 : (⟨S1x1x256, .f32⟩ : BufTy).Contents (Elt F) → (⟨S4096x128x256, .f32⟩ : BufTy).Contents (Elt F)),
    binary main_v33 main_v35 main_v36 (addf : (⟨S4096x128x256, .f32⟩ : BufTy).Contents (Elt F) → (⟨S4096x128x256, .f32⟩ : BufTy).Contents (Elt F) → (⟨S4096x128x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x128x256, .f32⟩) main_call2_v0) (broadcastInDim S4096x128x256 ![] bcast_S_S4096x128x256),
    TRef.binary (TRef.of (T := ⟨S4096x128x256, .f32⟩) main_v36) (TRef.of (T := ⟨S4096x128x256, .f32⟩) main_call2_v0) (TRef.of (T := ⟨S4096x128x256, .f32⟩) main_v37) maximumf,
    binary main_v37 main_arg5 main_v38 ((fun l r => Host.dotGeneral dot_S4096x128x256_S256x128_S4096x128x128_2_0_01_1_n_n none l r) : (⟨S4096x128x256, .f32⟩ : BufTy).Contents (Elt F) → (⟨S256x128, .f32⟩ : BufTy).Contents (Elt F) → (⟨S4096x128x128, .f32⟩ : BufTy).Contents (Elt F)),
    unary main_arg6 main_v39 (broadcastInDim S1x1x128 ![2] bcast_S128_S1x1x128_2 : (⟨S128, .f32⟩ : BufTy).Contents (Elt F) → (⟨S1x1x128, .f32⟩ : BufTy).Contents (Elt F)),
    unary main_v39 main_v40 (broadcastInDim S4096x128x128 ![0, 1, 2] bcast_S1x1x128_S4096x128x128_0_1_2 : (⟨S1x1x128, .f32⟩ : BufTy).Contents (Elt F) → (⟨S4096x128x128, .f32⟩ : BufTy).Contents (Elt F)),
    binary main_v38 main_v40 main_v41 (addf : (⟨S4096x128x128, .f32⟩ : BufTy).Contents (Elt F) → (⟨S4096x128x128, .f32⟩ : BufTy).Contents (Elt F) → (⟨S4096x128x128, .f32⟩ : BufTy).Contents (Elt F)) ]

/-- Two lines run one after the other: the contents after the second, from the contents after the first. -/
theorem after_append {τ' : Topo} {sig' : RefSig} {Val : EltTy → Type} (l₁ l₂ : List (HloOp τ' sig' Val)) :
    ∀ V : Valuation τ' sig' Val, after (l₁ ++ l₂) V = after l₂ (after l₁ V) := by
  induction l₁ with
  | nil => intro V; rfl
  | cons op l ih => intro V; simp only [List.cons_append, after_cons]; exact ih _

/-- The whole line's contents, through the two cuts. -/
theorem after_cut (V : Valuation τ sig (Elt F)) :
    after (ops1 ++ ops2 ++ ops3) V = after ops3 (after ops2 (after ops1 V)) := by
  rw [after_append, after_append]

set_option maxRecDepth 8192 in
theorem main_eq (c : Dev nD) : main (F := F) c = seq (ops1 ++ ops2 ++ ops3) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops1_sub : (ops1 : List (HloOp τ sig (Elt F))).Forall fun op => op.bufs ⊆ tcRefs τ sig :=
  ⟨binary_bufs_sub .., nullary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
set_option maxRecDepth 8192 in
theorem ops2_sub : (ops2 : List (HloOp τ sig (Elt F))).Forall fun op => op.bufs ⊆ tcRefs τ sig :=
  ⟨binary_bufs_sub .., nullary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
set_option maxRecDepth 8192 in
theorem ops3_sub : (ops3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops_sub : (ops1 ++ ops2 ++ ops3 : List (HloOp τ sig (Elt F))).Forall fun op => op.bufs ⊆ tcRefs τ sig :=
  List.forall_append.2 ⟨List.forall_append.2 ⟨ops1_sub, ops2_sub⟩, ops3_sub⟩

/-- Every operation determines its results (none allocates a buffer). -/
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops_fresh : ∀ op ∈ (ops1 ++ ops2 ++ ops3 : List (HloOp τ sig (Elt F))), op.fresh = ∅ :=
  fun op h => (List.mem_append.1 h).elim (fun h' => (List.mem_append.1 h').elim (ops1_fresh op) (ops2_fresh op)) (ops3_fresh op)

/-! ## The first part, from any contents -/

/-- After the first part the first result's buffer holds its stage function of the three arguments it reads. -/
theorem first_v15 (V : Valuation τ sig (Elt F)) :
    after ops1 V (Proc.devRef .tc main_v15)
      = ReadP.val_main_v15 (F := F) (V (Proc.devRef .tc main_arg0)) (V (Proc.devRef .tc main_arg1)) (V (Proc.devRef .tc main_arg2)) := by
  after_results_simp <;> rfl

/-- The first part leaves the seven arguments as they were. -/
theorem frame1 (V : Valuation τ sig (Elt F)) :
    after ops1 V (Proc.devRef .tc main_arg0) = V (Proc.devRef .tc main_arg0)
    ∧ after ops1 V (Proc.devRef .tc main_arg1) = V (Proc.devRef .tc main_arg1)
    ∧ after ops1 V (Proc.devRef .tc main_arg2) = V (Proc.devRef .tc main_arg2)
    ∧ after ops1 V (Proc.devRef .tc main_arg3) = V (Proc.devRef .tc main_arg3)
    ∧ after ops1 V (Proc.devRef .tc main_arg4) = V (Proc.devRef .tc main_arg4)
    ∧ after ops1 V (Proc.devRef .tc main_arg5) = V (Proc.devRef .tc main_arg5)
    ∧ after ops1 V (Proc.devRef .tc main_arg6) = V (Proc.devRef .tc main_arg6) :=
  ⟨by after_results_simp <;> rfl, by after_results_simp <;> rfl, by after_results_simp <;> rfl, by after_results_simp <;> rfl, by after_results_simp <;> rfl, by after_results_simp <;> rfl, by after_results_simp <;> rfl⟩

/-! ## The second part, from any contents that hold the first result -/

/-- The second part leaves the first result and the seven arguments as they were. -/
theorem frame2 (V : Valuation τ sig (Elt F)) :
    after ops2 V (Proc.devRef .tc main_v15) = V (Proc.devRef .tc main_v15)
    ∧ after ops2 V (Proc.devRef .tc main_arg0) = V (Proc.devRef .tc main_arg0)
    ∧ after ops2 V (Proc.devRef .tc main_arg1) = V (Proc.devRef .tc main_arg1)
    ∧ after ops2 V (Proc.devRef .tc main_arg2) = V (Proc.devRef .tc main_arg2)
    ∧ after ops2 V (Proc.devRef .tc main_arg3) = V (Proc.devRef .tc main_arg3)
    ∧ after ops2 V (Proc.devRef .tc main_arg4) = V (Proc.devRef .tc main_arg4)
    ∧ after ops2 V (Proc.devRef .tc main_arg5) = V (Proc.devRef .tc main_arg5)
    ∧ after ops2 V (Proc.devRef .tc main_arg6) = V (Proc.devRef .tc main_arg6) :=
  ⟨by after_results_simp <;> rfl, by after_results_simp <;> rfl, by after_results_simp <;> rfl, by after_results_simp <;> rfl, by after_results_simp <;> rfl, by after_results_simp <;> rfl, by after_results_simp <;> rfl, by after_results_simp <;> rfl⟩

/-! ## The third part, from any contents that hold main_v31 -/

/-- The third part leaves the first result and the seven arguments as they were. -/
theorem frame3 (V : Valuation τ sig (Elt F)) :
    after ops3 V (Proc.devRef .tc main_v15) = V (Proc.devRef .tc main_v15)
    ∧ after ops3 V (Proc.devRef .tc main_arg0) = V (Proc.devRef .tc main_arg0)
    ∧ after ops3 V (Proc.devRef .tc main_arg1) = V (Proc.devRef .tc main_arg1)
    ∧ after ops3 V (Proc.devRef .tc main_arg2) = V (Proc.devRef .tc main_arg2)
    ∧ after ops3 V (Proc.devRef .tc main_arg3) = V (Proc.devRef .tc main_arg3)
    ∧ after ops3 V (Proc.devRef .tc main_arg4) = V (Proc.devRef .tc main_arg4)
    ∧ after ops3 V (Proc.devRef .tc main_arg5) = V (Proc.devRef .tc main_arg5)
    ∧ after ops3 V (Proc.devRef .tc main_arg6) = V (Proc.devRef .tc main_arg6) :=
  ⟨by after_results_simp <;> rfl, by after_results_simp <;> rfl, by after_results_simp <;> rfl, by after_results_simp <;> rfl, by after_results_simp <;> rfl, by after_results_simp <;> rfl, by after_results_simp <;> rfl, by after_results_simp <;> rfl⟩

/-- After the second part, from contents holding the first result (as its stage function of x0 x1 x2) and the
    arguments x1, x2: main_v31's buffer holds its stage function. The first result enters as one value. -/
theorem second_v31 (W : Valuation τ sig (Elt F)) (x0 x1 x2 : (⟨S4096x128x128, .f32⟩ : BufTy).Contents (Elt F))
    (h15 : W (Proc.devRef .tc main_v15) = ReadP.val_main_v15 (F := F) x0 x1 x2)
    (h1 : W (Proc.devRef .tc main_arg1) = x1) (h2 : W (Proc.devRef .tc main_arg2) = x2) :
    after ops2 W (Proc.devRef .tc main_v31) = ReadP.val_main_v31 (F := F) x0 x1 x2 := by
  subst h1 h2
  after_results_simp
  rw [h15]
  rfl

/-- After the third part, from contents holding main_v31 (as its stage function of x0 x1 x2) and the arguments
    x2 … x6: the second result's buffer holds its stage function. main_v31 enters as one value. -/
theorem third_v41 (W : Valuation τ sig (Elt F)) (x0 x1 x2 : (⟨S4096x128x128, .f32⟩ : BufTy).Contents (Elt F)) (x3 : (⟨S256x256, .f32⟩ : BufTy).Contents (Elt F)) (x4 : (⟨S256, .f32⟩ : BufTy).Contents (Elt F)) (x5 : (⟨S256x128, .f32⟩ : BufTy).Contents (Elt F)) (x6 : (⟨S128, .f32⟩ : BufTy).Contents (Elt F))
    (h31 : W (Proc.devRef .tc main_v31) = ReadP.val_main_v31 (F := F) x0 x1 x2)
    (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) :
    after ops3 W (Proc.devRef .tc main_v41) = ReadP.val_main_v41 (F := F) x0 x1 x2 x3 x4 x5 x6 := by
  subst h2 h3 h4 h5 h6
  after_results_simp
  rw [h31]
  rfl

/-! ## The whole line -/

/-- A buffer that neither the second nor the third part writes holds, at the end, what the first part left. -/
theorem frame23 (V : Valuation τ sig (Elt F)) :
    after (ops1 ++ ops2 ++ ops3) V (Proc.devRef .tc main_v15) = after ops1 V (Proc.devRef .tc main_v15)
    ∧ after (ops1 ++ ops2 ++ ops3) V (Proc.devRef .tc main_arg0) = after ops1 V (Proc.devRef .tc main_arg0)
    ∧ after (ops1 ++ ops2 ++ ops3) V (Proc.devRef .tc main_arg1) = after ops1 V (Proc.devRef .tc main_arg1)
    ∧ after (ops1 ++ ops2 ++ ops3) V (Proc.devRef .tc main_arg2) = after ops1 V (Proc.devRef .tc main_arg2)
    ∧ after (ops1 ++ ops2 ++ ops3) V (Proc.devRef .tc main_arg3) = after ops1 V (Proc.devRef .tc main_arg3)
    ∧ after (ops1 ++ ops2 ++ ops3) V (Proc.devRef .tc main_arg4) = after ops1 V (Proc.devRef .tc main_arg4)
    ∧ after (ops1 ++ ops2 ++ ops3) V (Proc.devRef .tc main_arg5) = after ops1 V (Proc.devRef .tc main_arg5)
    ∧ after (ops1 ++ ops2 ++ ops3) V (Proc.devRef .tc main_arg6) = after ops1 V (Proc.devRef .tc main_arg6) := by
  rw [after_cut]
  exact ⟨(frame3 _).1.trans (frame2 _).1,
    (frame3 _).2.1.trans (frame2 _).2.1,
    (frame3 _).2.2.1.trans (frame2 _).2.2.1,
    (frame3 _).2.2.2.1.trans (frame2 _).2.2.2.1,
    (frame3 _).2.2.2.2.1.trans (frame2 _).2.2.2.2.1,
    (frame3 _).2.2.2.2.2.1.trans (frame2 _).2.2.2.2.2.1,
    (frame3 _).2.2.2.2.2.2.1.trans (frame2 _).2.2.2.2.2.2.1,
    (frame3 _).2.2.2.2.2.2.2.trans (frame2 _).2.2.2.2.2.2.2⟩

/-- The first result after the whole line. -/
theorem all_v15 (V : Valuation τ sig (Elt F)) :
    after (ops1 ++ ops2 ++ ops3) V (Proc.devRef .tc main_v15)
      = ReadP.val_main_v15 (F := F) (V (Proc.devRef .tc main_arg0)) (V (Proc.devRef .tc main_arg1)) (V (Proc.devRef .tc main_arg2)) :=
  (frame23 V).1.trans (first_v15 V)

/-- The second result after the whole line. -/
theorem all_v41 (V : Valuation τ sig (Elt F)) :
    after (ops1 ++ ops2 ++ ops3) V (Proc.devRef .tc main_v41)
      = ReadP.val_main_v41 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_cut]
  have f1 := frame1 V
  have f2 := frame2 (after ops1 V)
  exact third_v41 _ _ _ _ _ _ _ _
    (second_v31 _ _ _ _ (first_v15 V) f1.2.1 f1.2.2.1)
    (f2.2.2.2.1.trans f1.2.2.1) (f2.2.2.2.2.1.trans f1.2.2.2.1) (f2.2.2.2.2.2.1.trans f1.2.2.2.2.1) (f2.2.2.2.2.2.2.1.trans f1.2.2.2.2.2.1) (f2.2.2.2.2.2.2.2.trans f1.2.2.2.2.2.2)

/-- An argument after the whole line: unchanged. -/
theorem all_args (V : Valuation τ sig (Elt F)) :
    after (ops1 ++ ops2 ++ ops3) V (Proc.devRef .tc main_arg0) = V (Proc.devRef .tc main_arg0)
    ∧ after (ops1 ++ ops2 ++ ops3) V (Proc.devRef .tc main_arg1) = V (Proc.devRef .tc main_arg1)
    ∧ after (ops1 ++ ops2 ++ ops3) V (Proc.devRef .tc main_arg2) = V (Proc.devRef .tc main_arg2)
    ∧ after (ops1 ++ ops2 ++ ops3) V (Proc.devRef .tc main_arg3) = V (Proc.devRef .tc main_arg3)
    ∧ after (ops1 ++ ops2 ++ ops3) V (Proc.devRef .tc main_arg4) = V (Proc.devRef .tc main_arg4)
    ∧ after (ops1 ++ ops2 ++ ops3) V (Proc.devRef .tc main_arg5) = V (Proc.devRef .tc main_arg5)
    ∧ after (ops1 ++ ops2 ++ ops3) V (Proc.devRef .tc main_arg6) = V (Proc.devRef .tc main_arg6) :=
  have f := frame23 V
  have f1 := frame1 V
  ⟨f.2.1.trans f1.1, f.2.2.1.trans f1.2.1, f.2.2.2.1.trans f1.2.2.1, f.2.2.2.2.1.trans f1.2.2.2.1, f.2.2.2.2.2.1.trans f1.2.2.2.2.1, f.2.2.2.2.2.2.1.trans f1.2.2.2.2.2.1, f.2.2.2.2.2.2.2.trans f1.2.2.2.2.2.2⟩

/-- On every device, for any float values, from any memory with zero counters: every weakly fair execution of
    @main terminates with the first result at its stage function of the arguments' launch contents, the second
    result at its own, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = ReadP.val_main_v15 (F := F) (m ((c.tc : Thread nD τ).loc main_arg0)) (m ((c.tc : Thread nD τ).loc main_arg1)) (m ((c.tc : Thread nD τ).loc main_arg2))
      ∧ r.2.mem ((c.tc : Thread nD τ).loc main_v41) = ReadP.val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      have a := all_args (launchContents m c)
      ⟨(h c main_v15).trans (all_v15 (launchContents m c)),
        (h c main_v41).trans (all_v41 (launchContents m c)),
        (h c main_arg0).trans a.1, (h c main_arg1).trans a.2.1, (h c main_arg2).trans a.2.2.1, (h c main_arg3).trans a.2.2.2.1, (h c main_arg4).trans a.2.2.2.2.1, (h c main_arg5).trans a.2.2.2.2.2.1, (h c main_arg6).trans a.2.2.2.2.2.2⟩)
    (run_seq scopedRefs_eq scopedSems_eq defs main (fun _ => ops1 ++ ops2 ++ ops3) main_eq (fun _ => ops_sub) m ρ
      (fun _ => ops_fresh))

end Cert.ReferenceIdeal.RefRun

end
-- ==== Proof.RefAttn.lean ====
/-
  The reference's two attentions, read at an index.

  For one ray r the reference computes, from arrays A, B, V (points × features),
    norm   n p   = sqrt (∑ d, A p d · A p d)
    score  S p q = (∑ d, B p d · A q d) / n p
    M q          = max (−∞) (the maximum over p of S p q, from −∞)
    E p q        = exp (S p q − M q)
    Z q          = 0 + ∑ p, E p q
    result p d   = ∑ q, (E p q / Z q) · V q d,
  which is `attn A B V p d`: a maximum with −∞ is the other argument, and the zero word is 0. Each stage is read at an
  index (ray, point, feature) or (ray, column) built from its coordinates, so that the index maps of the broadcasts,
  sums and products compute. The second attention is the same chain of operations on other arrays (A = the first
  result), so its reading is the first's at those arrays.
-/
import proofs.«139417_j64063732187319_2_alg».proof.Proof.RefRead
import proofs.«139417_j64063732187319_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefAttn

open Cert.ReferenceIdeal Cert.ReferenceIdeal.Gen Idealize.ShloMosaic Idealize.ShloMosaic.ValueIdx Cert.Fusion

/-- A batch of 4096 rays as the reference's argument type spells it. -/
abbrev Arr := (⟨S4096x128x128, .f32⟩ : BufTy).Contents (Elt Ideal)

/-! ## The maximum down a column -/

/-- A (ray, column) index with the row `k` put back on axis 1 is (ray, k, column). -/
theorem lift_col (h : S4096x128x128.Reduces [1] S4096x128) (r : Fin 4096) (q : Fin 128)
    (k : Fin (S4096x128x128.size 1)) : h.lift (ix2 r q) k = ix3 r (⟨k.val, k.isLt⟩ : Fin 128) q := by
  funext c; apply Fin.ext
  fin_cases c <;> rfl

/-- From −∞ the maximum-reduce over axis 1, at (ray r, column q), is the fold of `max` from −∞ down that column. -/
theorem maxDown_at (y : S4096x128x128.Idx → EReal) (init : S_.Idx → EReal) (hinit : ∀ i, init i = negInf)
    (r : Fin 4096) (q : Fin 128) :
    Host.reduce (FloatOps.maximumf (F := Ideal) (φ := .f32)) y init reducesTo_S4096x128x128_S4096x128_d1 h_S_ (ix2 r q)
      = (Finset.univ : Finset (Fin 128)).fold max negInf (fun i => y (ix3 r i q)) := by
  have h : S4096x128x128.Reduces [1] S4096x128 := by decide
  rw [Host.reduce_eq_fold_single (FloatOps.maximumf (F := Ideal) (φ := .f32)) y init reducesTo_S4096x128x128_S4096x128_d1 h h_S_, hinit]
  have hf : (y ∘ h.lift (ix2 r q)) = fun k : Fin 128 => y (ix3 r k q) := funext fun k => congrArg y (lift_col h r q k)
  exact congrArg (fun f => Finset.fold max negInf f (Finset.univ : Finset (Fin 128))) hf

/-! ## The first attention, stage by stage, at an index -/

/-- The norm of row p of ray r of A (the reference keeps it with a last axis of extent one). -/
theorem norm_at (x2 : Arr) (r : Fin 4096) (p : Fin 128) (z : Fin 1) :
    ReadP.val_main_v0 (F := Ideal) x2 (ix3 r p z) = Ideal.sqrt (∑ d : Fin 128, x2 (ix3 r p d) * x2 (ix3 r p d)) := by
  refine (ReadP.val_main_v0_apply x2 _).trans ?_
  rw [Ideal.hostUnary_sqrt_def]
  refine congrArg Ideal.sqrt ?_
  refine (ReadP.val_main_call0_v2_apply x2 _).trans ?_
  refine (ReadP.val_main_call0_v1_apply x2 _).trans ?_
  rw [ReadP.val_main_call0_cst_apply, Ideal.ofBits_def, Ideal.ofBits_zero_f32, zero_add]
  refine Finset.sum_congr rfl fun k _ => ?_
  have e : ReadP.idx_main_call0_v1 (ReadP.idx_main_call0_v2 (ix3 r p z)) k = ix3 r p k :=
    funext fun a => Fin.ext (by match a with | ⟨0, _⟩ => rfl | ⟨1, _⟩ => rfl | ⟨2, _⟩ => rfl)
  rw [e]; rfl

/-- Row p of B against row q of A. -/
theorem dot_at (x1 x2 : Arr) (r : Fin 4096) (p q : Fin 128) :
    ReadP.val_main_v1 (F := Ideal) x1 x2 (ix3 r p q) = ∑ d : Fin 128, x1 (ix3 r p d) * x2 (ix3 r q d) := by
  refine (ReadP.val_main_v1_apply x1 x2 _).trans (Finset.sum_congr rfl fun k _ => ?_)
  have el : ReadP.lidx_main_v1 (ix3 r p q) k = ix3 r p k :=
    funext fun a => Fin.ext (by match a with | ⟨0, _⟩ => rfl | ⟨1, _⟩ => rfl | ⟨2, _⟩ => rfl)
  have er : ReadP.ridx_main_v1 (ix3 r p q) k = ix3 r q k :=
    funext fun a => Fin.ext (by match a with | ⟨0, _⟩ => rfl | ⟨1, _⟩ => rfl | ⟨2, _⟩ => rfl)
  rw [el, er]

/-- The score. -/
theorem score_at (x1 x2 : Arr) (r : Fin 4096) (p q : Fin 128) :
    ReadP.val_main_v3 (F := Ideal) x1 x2 (ix3 r p q) = score (ray x2 r) (ray x1 r) p q := by
  refine (ReadP.val_main_v3_apply x1 x2 _).trans ?_
  have e : ReadP.idx_main_v2 (ix3 r p q) = ix3 r p (0 : Fin 1) :=
    funext fun a => Fin.ext (by match a with | ⟨0, _⟩ => rfl | ⟨1, _⟩ => rfl | ⟨2, _⟩ => rfl)
  rw [Ideal.hostDivf_def, dot_at, ReadP.val_main_v2_apply, e, norm_at]
  rfl

/-- The maximum down column q of the scores; the reference's second maximum with −∞ changes nothing. -/
theorem colMax_at (x1 x2 : Arr) (r : Fin 4096) (q : Fin 128) :
    ReadP.val_main_v6 (F := Ideal) x1 x2 (ix2 r q) = colMax (score (ray x2 r) (ray x1 r)) q := by
  refine (ReadP.val_main_v6_apply x1 x2 _).trans ?_
  rw [Ideal.maximumf_def, ReadP.val_main_v5_apply, ReadP.val_main_cst_0_apply, Ideal.ofBits_def]
  refine (max_negInf _).trans ?_
  unfold ReadP.val_main_v4
  refine (maxDown_at _ _ (fun i => ReadP.val_main_cst_apply (F := Ideal) i) r q).trans ?_
  unfold colMax
  exact congrArg (fun f => Finset.fold max negInf f (Finset.univ : Finset (Fin 128)))
    (funext fun i => score_at x1 x2 r i q)

/-- The shifted exponential. -/
theorem expo_at (x1 x2 : Arr) (r : Fin 4096) (p q : Fin 128) :
    ReadP.val_main_v10 (F := Ideal) x1 x2 (ix3 r p q) = expo (score (ray x2 r) (ray x1 r)) p q := by
  refine (ReadP.val_main_v10_apply x1 x2 _).trans ?_
  have e8 : ReadP.idx_main_v7 (ReadP.idx_main_v8 (ix3 r p q)) = ix2 r q :=
    funext fun a => Fin.ext (by match a with | ⟨0, _⟩ => rfl | ⟨1, _⟩ => rfl)
  rw [Ideal.hostUnary_exp_def, ReadP.val_main_v9_apply, Ideal.subf_def, score_at, ReadP.val_main_v8_apply,
    ReadP.val_main_v7_apply, e8, colMax_at]
  rfl

/-- The sum of the exponentials down column q. -/
theorem expoSum_at (x1 x2 : Arr) (r : Fin 4096) (q : Fin 128) :
    ReadP.val_main_v11 (F := Ideal) x1 x2 (ix2 r q) = ∑ k : Fin 128, expo (score (ray x2 r) (ray x1 r)) k q := by
  refine (ReadP.val_main_v11_apply x1 x2 _).trans ?_
  rw [ReadP.val_main_cst_1_apply, Ideal.ofBits_def, Ideal.ofBits_zero_f32, zero_add]
  refine Finset.sum_congr rfl fun k _ => ?_
  have e : ReadP.idx_main_v11 (ix2 r q) k = ix3 r k q :=
    funext fun a => Fin.ext (by match a with | ⟨0, _⟩ => rfl | ⟨1, _⟩ => rfl | ⟨2, _⟩ => rfl)
  rw [e, expo_at]

/-- The weight: the exponential over its column's sum. -/
theorem weight_at (x1 x2 : Arr) (r : Fin 4096) (p q : Fin 128) :
    ReadP.val_main_v14 (F := Ideal) x1 x2 (ix3 r p q)
      = Ideal.div (expo (score (ray x2 r) (ray x1 r)) p q) (∑ k : Fin 128, expo (score (ray x2 r) (ray x1 r)) k q) := by
  refine (ReadP.val_main_v14_apply x1 x2 _).trans ?_
  have e : ReadP.idx_main_v12 (ReadP.idx_main_v13 (ix3 r p q)) = ix2 r q :=
    funext fun a => Fin.ext (by match a with | ⟨0, _⟩ => rfl | ⟨1, _⟩ => rfl)
  rw [Ideal.hostDivf_def, expo_at, ReadP.val_main_v13_apply, ReadP.val_main_v12_apply, e, expoSum_at]

/-- The reference's first attention at ray r, point p, feature d: A = the third argument, B = the second, V = the first. -/
theorem fused_apply (x0 x1 x2 : (⟨S4096x128x128, .f32⟩ : BufTy).Contents (Elt Ideal)) (r : Fin 4096) (p d : Fin 128) :
    ReadP.val_main_v15 (F := Ideal) x0 x1 x2 (ix3 r p d) = attn (ray x2 r) (ray x1 r) (ray x0 r) p d := by
  refine (ReadP.val_main_v15_apply x0 x1 x2 _).trans ?_
  unfold attn weigh
  refine Finset.sum_congr rfl fun k _ => ?_
  have el : ReadP.lidx_main_v15 (ix3 r p d) k = ix3 r p k :=
    funext fun a => Fin.ext (by match a with | ⟨0, _⟩ => rfl | ⟨1, _⟩ => rfl | ⟨2, _⟩ => rfl)
  have er : ReadP.ridx_main_v15 (ix3 r p d) k = ix3 r k d :=
    funext fun a => Fin.ext (by match a with | ⟨0, _⟩ => rfl | ⟨1, _⟩ => rfl | ⟨2, _⟩ => rfl)
  rw [el, er, weight_at]
  rfl

/-! ## The second attention -/

/-- The reference's second attention is the same chain of operations as the first, run on other arrays: A = the first
    result, B = the second argument, V = the third. Every stage's definition unfolds to the corresponding one. -/
theorem second_eq_first (x0 x1 x2 : Arr) :
    ReadP.val_main_v31 (F := Ideal) x0 x1 x2 = ReadP.val_main_v15 (F := Ideal) x2 x1 (ReadP.val_main_v15 (F := Ideal) x0 x1 x2) := rfl

theorem attended_apply (x0 x1 x2 : (⟨S4096x128x128, .f32⟩ : BufTy).Contents (Elt Ideal)) (r : Fin 4096) (p d : Fin 128) :
    ReadP.val_main_v31 (F := Ideal) x0 x1 x2 (ix3 r p d) = attn (ray (ReadP.val_main_v15 (F := Ideal) x0 x1 x2) r) (ray x1 r) (ray x2 r) p d :=
  (congrFun (second_eq_first x0 x1 x2) (ix3 r p d)).trans
    (fused_apply x2 x1 (ReadP.val_main_v15 (F := Ideal) x0 x1 x2) r p d)

end Cert.ReferenceIdeal.RefAttn

end
-- ==== Proof.RefMlp.lean ====
/-
  The reference's perceptron, read at an index.

  After the second attention's result (an array of 4096 rays × 128 points × 128 features, kept opaque here) the
  reference joins each row with the rgb row into a row of length 256, multiplies it by the 256 × 256 matrix W1, adds
  the bias b1, takes the maximum with the zero word, multiplies by the 256 × 128 matrix W2 and adds the bias b2.
  Read at the index (r, p, d) this is the second layer `outRow` of the first layer `hidden` of the two rows at (r, p):
  the joined array at (r, p, k) is the joined row `join` at k (the first piece below 128, the second from 128 on),
  and one product sum over the joined row is the two half sums (`hidden_join`).
-/
import proofs.«139417_j64063732187319_2_alg».proof.Proof.RefRead
import proofs.«139417_j64063732187319_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefMlp

open Cert.ReferenceIdeal Cert.ReferenceIdeal.Gen Idealize.ShloMosaic Idealize.ShloMosaic.ValueIdx Cert.Fusion

/-- The joined array at (r, p, k) is the joined row at k: the attended row below 128, the rgb row from 128 on. -/
theorem v32_apply (x0 x1 x2 : (⟨S4096x128x128, .f32⟩ : BufTy).Contents (Elt Ideal)) (r : Fin 4096) (p : Fin 128) (k : Fin 256) :
    ReadP.val_main_v32 (F := Ideal) x0 x1 x2 (ix3 r p k)
      = join (fun c => ReadP.val_main_v31 (F := Ideal) x0 x1 x2 (ix3 r p c)) (fun c => x2 (ix3 r p c)) k := by
  unfold ReadP.val_main_v32
  generalize ReadP.val_main_v31 (F := Ideal) x0 x1 x2 = y
  unfold join
  by_cases h : k.val < 128
  · rw [dif_pos h]
    exact concatenate_pair_apply_left (2 : Fin S4096x128x256.rank) y x2
      concatenates_S4096x128x128_S4096x128x128_S4096x128x256_d2 (ix3 r p k) rfl (ix3 r p ⟨k.val, h⟩)
      (fun b => by match b with | ⟨0, _⟩ => rfl | ⟨1, _⟩ => rfl | ⟨2, _⟩ => rfl)
  · rw [dif_neg h]
    exact concatenate_pair_apply_right (2 : Fin S4096x128x256.rank) y x2
      concatenates_S4096x128x128_S4096x128x128_S4096x128x256_d2 (ix3 r p k) rfl rfl
      (ix3 r p ⟨k.val - 128, by have := k.isLt; omega⟩)
      (fun b hb => by
        match b, hb with
        | ⟨0, _⟩, _ => rfl
        | ⟨1, _⟩, _ => rfl
        | ⟨2, _⟩, hb => exact absurd rfl hb)
      (by show k.val - 128 + 128 = k.val; omega)

/-- The first layer at (r, p, h): the product sum over the joined row, the bias, the rectifier. -/
theorem v37_apply (x0 x1 x2 : (⟨S4096x128x128, .f32⟩ : BufTy).Contents (Elt Ideal)) (x3 : (⟨S256x256, .f32⟩ : BufTy).Contents (Elt Ideal)) (x4 : (⟨S256, .f32⟩ : BufTy).Contents (Elt Ideal)) (r : Fin 4096) (p : Fin 128) (h : Fin 256) :
    ReadP.val_main_v37 (F := Ideal) x0 x1 x2 x3 x4 (ix3 r p h)
      = hidden (mat2 x3) (vec1 x4) (fun c => ReadP.val_main_v31 (F := Ideal) x0 x1 x2 (ix3 r p c)) (fun c => x2 (ix3 r p c)) h := by
  rw [ReadP.val_main_v37_apply, ReadP.val_main_v36_apply, ReadP.val_main_v33_apply, ReadP.val_main_v35_apply,
    ReadP.val_main_v34_apply, ReadP.val_main_call2_v0_apply, ReadP.val_main_call2_cst_apply]
  refine Eq.trans ?_ (hidden_join (mat2 x3) (vec1 x4) _ _ h)
  have hb : x4 (ReadP.idx_main_v34 (ReadP.idx_main_v35 (ix3 r p h))) = vec1 x4 h :=
    congrArg x4 (funext fun a => Fin.ext (by match a with | ⟨0, _⟩ => rfl))
  have hs : (∑ k : Fin 256, ReadP.val_main_v32 (F := Ideal) x0 x1 x2 (ReadP.lidx_main_v33 (ix3 r p h) k) * x3 (ReadP.ridx_main_v33 (ix3 r p h) k))
      = ∑ k : Fin 256, join (fun c => ReadP.val_main_v31 (F := Ideal) x0 x1 x2 (ix3 r p c)) (fun c => x2 (ix3 r p c)) k * mat2 x3 k h :=
    Finset.sum_congr rfl fun k _ => by
      have e1 : ReadP.lidx_main_v33 (ix3 r p h) k = ix3 r p k :=
        funext fun a => Fin.ext (by match a with | ⟨0, _⟩ => rfl | ⟨1, _⟩ => rfl | ⟨2, _⟩ => rfl)
      have e2 : ReadP.ridx_main_v33 (ix3 r p h) k = ix2 k h :=
        funext fun a => Fin.ext (by match a with | ⟨0, _⟩ => rfl | ⟨1, _⟩ => rfl)
      exact congrArg₂ (· * ·) ((congrArg _ e1).trans (v32_apply x0 x1 x2 r p k)) (congrArg x3 e2)
  rw [hs, hb]
  rfl

/-- The reference's second result at (r, p, d): the second layer of the first layer of the two rows at (r, p). -/
theorem out_apply (x0 x1 x2 : (⟨S4096x128x128, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (r : Fin 4096) (p d : Fin 128) :
    ReadP.val_main_v41 (F := Ideal) x0 x1 x2 x3 x4 x5 x6 (ix3 r p d)
      = outRow (mat2 x5) (vec1 x6) (hidden (mat2 x3) (vec1 x4) (fun k => ReadP.val_main_v31 (F := Ideal) x0 x1 x2 (ix3 r p k)) (fun k => x2 (ix3 r p k))) d := by
  rw [ReadP.val_main_v41_apply, ReadP.val_main_v38_apply, ReadP.val_main_v40_apply, ReadP.val_main_v39_apply]
  unfold outRow
  have hb : x6 (ReadP.idx_main_v39 (ReadP.idx_main_v40 (ix3 r p d))) = vec1 x6 d :=
    congrArg x6 (funext fun a => Fin.ext (by match a with | ⟨0, _⟩ => rfl))
  have hs : (∑ k : Fin 256, ReadP.val_main_v37 (F := Ideal) x0 x1 x2 x3 x4 (ReadP.lidx_main_v38 (ix3 r p d) k) * x5 (ReadP.ridx_main_v38 (ix3 r p d) k))
      = ∑ k : Fin 256, hidden (mat2 x3) (vec1 x4) (fun c => ReadP.val_main_v31 (F := Ideal) x0 x1 x2 (ix3 r p c)) (fun c => x2 (ix3 r p c)) k * mat2 x5 k d :=
    Finset.sum_congr rfl fun k _ => by
      have e1 : ReadP.lidx_main_v38 (ix3 r p d) k = ix3 r p k :=
        funext fun a => Fin.ext (by match a with | ⟨0, _⟩ => rfl | ⟨1, _⟩ => rfl | ⟨2, _⟩ => rfl)
      have e2 : ReadP.ridx_main_v38 (ix3 r p d) k = ix2 k d :=
        funext fun a => Fin.ext (by match a with | ⟨0, _⟩ => rfl | ⟨1, _⟩ => rfl)
      exact congrArg₂ (· * ·) ((congrArg _ e1).trans (v37_apply x0 x1 x2 x3 x4 r p k)) (congrArg x5 e2)
  rw [hs, hb]
  rfl

end Cert.ReferenceIdeal.RefMlp

end
-- ==== Proof.RefValue.lean ====
/-
  The reference's two results as whole-array functions of its arguments.

  At every index (r, p, d) the first result is ray r's attention (A = rgb, B = depth, V = semantic) and the second is the
  perceptron of the second attention's row (A = the first result, B = depth, V = rgb) joined with the rgb row; one
  product sum over the joined row of length 256 is the two half sums. So the two results are `fused` and `out` of the
  argument arrays.
-/
import proofs.«139417_j64063732187319_2_alg».proof.Proof.RefAttn
import proofs.«139417_j64063732187319_2_alg».proof.Proof.RefMlp

noncomputable section

open scoped BigOperators

namespace Cert.ReferenceIdeal.RefValue

open Cert.ReferenceIdeal Cert.ReferenceIdeal.Gen Idealize.ShloMosaic Idealize.ShloMosaic.ValueIdx Cert.Fusion

theorem fused_eq (x0 x1 x2 : (⟨S4096x128x128, .f32⟩ : BufTy).Contents (Elt Ideal)) :
    ReadP.val_main_v15 (F := Ideal) x0 x1 x2 = fused (B := 4096) x0 x1 x2 :=
  funext fun i => by
    obtain ⟨r, p, d, rfl⟩ : ∃ (r : Fin 4096) (p d : Fin 128), i = ix3 r p d := ⟨i 0, i 1, i 2, eq_ix3 i⟩
    exact RefAttn.fused_apply x0 x1 x2 r p d

theorem out_eq (x0 x1 x2 : (⟨S4096x128x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) :
    ReadP.val_main_v41 (F := Ideal) x0 x1 x2 x3 x4 x5 x6 = out (B := 4096) x0 x1 x2 (mat2 x3) (vec1 x4) (mat2 x5) (vec1 x6) :=
  funext fun i => by
    obtain ⟨r, p, d, rfl⟩ : ∃ (r : Fin 4096) (p d : Fin 128), i = ix3 r p d := ⟨i 0, i 1, i 2, eq_ix3 i⟩
    refine (RefMlp.out_apply x0 x1 x2 x3 x4 x5 x6 r p d).trans ?_
    have hx : (fun k : Fin 128 => ReadP.val_main_v31 (F := Ideal) x0 x1 x2 (ix3 r p k)) = attended (B := 4096) x0 x1 x2 r p :=
      funext fun k => by
        refine (RefAttn.attended_apply x0 x1 x2 r p k).trans ?_
        rw [fused_eq]
        rfl
    rw [hx]
    rfl

end Cert.ReferenceIdeal.RefValue

end
-- ==== Proof.lean ====
/-
  The kernel fuses, for each of 4096 rays of 128 points with 128 features, two softmax attentions and a two-layer
  perceptron; the reference computes the same with whole-array operations.

  One attention of a ray, with matrices A, B, V (points × features): the scores S i j = (∑ d, B i d · A j d) / ‖A i‖, a
  softmax DOWN each column j of S (shifted by the column's maximum), and the weights applied to V's rows. The first
  result is the attention with A = rgb, B = depth, V = semantic; the second attention has A = the first result, B = depth,
  V = rgb, and each of its rows, joined with the rgb row, goes through hidden = max (row · W1 + b1) 0 and out = hidden · W2 + b2.

  Why the two programs agree on the extended reals. The kernel works on blocks of 32 rays and every ray is handled on its
  own, so a block's results are the whole-array results restricted to the block, and the 128 blocks tile the arrays. Its
  roundings to a narrower float format are the identity there; its matrix products into a zero accumulator and its lane
  sums are the plain sums the reference's contractions and reductions are; its maximum from −∞ is the reference's, whose
  second maximum with −∞ changes nothing. The one difference in arrangement is the first layer: the kernel multiplies the
  attended row by the first 128 rows of W1 and the rgb row by the last 128 and adds, where the reference joins the two
  rows and multiplies once — a finite sum in a commutative monoid split in two. No step distributes, cancels or moves a
  factor across a sum, so no entry needs to be finite and the precondition is never opened.

  The kernel's side is Proof/KOps, KAttn, KMlp, KPay (the body's operations and payloads, ray by ray) and KValue (from
  blocks to arrays, over the generated frame run); the reference's side is Proof/RefRun (its run), RefAttn, RefMlp and
  RefValue (its stages read at an index); Proof/Spec holds the functions both sides are shown equal to.
-/
import proofs.«139417_j64063732187319_2_alg».proof.Defs
import proofs.«139417_j64063732187319_2_alg».proof.Proof.Gen.Kernel
import proofs.«139417_j64063732187319_2_alg».proof.Proof.Gen.Kernel.Skeleton
import proofs.«139417_j64063732187319_2_alg».proof.Proof.Gen.Kernel.Launch
import proofs.«139417_j64063732187319_2_alg».proof.Proof.Gen.Kernel.Points
import proofs.«139417_j64063732187319_2_alg».proof.Proof.Gen.Kernel.Frame
import proofs.«139417_j64063732187319_2_alg».proof.Proof.Gen.KernelIdeal
import proofs.«139417_j64063732187319_2_alg».proof.Proof.Gen.KernelIdeal.Skeleton
import proofs.«139417_j64063732187319_2_alg».proof.Proof.Gen.KernelIdeal.Launch
import proofs.«139417_j64063732187319_2_alg».proof.Proof.Gen.KernelIdeal.Points
import proofs.«139417_j64063732187319_2_alg».proof.Proof.Gen.KernelIdeal.Frame
import proofs.«139417_j64063732187319_2_alg».proof.Proof.Gen.ReferenceIdeal
import proofs.«139417_j64063732187319_2_alg».proof.Proof.Gen.Pre_finite_inputs
import proofs.«139417_j64063732187319_2_alg».proof.Proof.Gen.KernelIdeal.Value
import proofs.«139417_j64063732187319_2_alg».proof.Proof.KValue
import proofs.«139417_j64063732187319_2_alg».proof.Proof.RefRun
import proofs.«139417_j64063732187319_2_alg».proof.Proof.RefValue
import Idealize.ShloMosaic.Adequacy
import Idealize.ShloMosaic.Init

noncomputable section

namespace Cert.Proof

open Idealize.ShloMosaic Idealize.ShloMosaic.TcCoe Idealize.SL.Sem Cert.Fusion

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.RefRun.run (F := Ideal) m ρ)

/-- The idealization rewrote nothing. -/
theorem preserves : Cert.preserves_Kernel_KernelIdeal := trivial

/-- From memories that agree on the seven arguments both programs end with the first result at `fused` and the second at
    `out` of the argument arrays. -/
theorem algebraic : Cert.algebraic_KernelIdeal_ReferenceIdeal := by
  intro m ρ m' ρ' _ hagree
  refine ⟨fun c => Cert.KernelIdeal.Whole.G7 m c, fun c => Cert.KernelIdeal.Whole.G8 m c, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.1, (hagree c).2.2.1]
    exact Cert.ReferenceIdeal.RefValue.fused_eq _ _ _
  · rw [(hagree c).1, (hagree c).2.1, (hagree c).2.2.1, (hagree c).2.2.2.1, (hagree c).2.2.2.2.1, (hagree c).2.2.2.2.2.1,
      (hagree c).2.2.2.2.2.2]
    exact Cert.ReferenceIdeal.RefValue.out_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
